-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S16 .f32) (main_arg6 : FVec F S16x2 .f32) (main_arg7 : FVec F S2 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg6
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) (main_arg6 : FVec F S16x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S10000x128 : Shape := ⟨2, ![10000, 128]⟩
abbrev S10000x16 : Shape := ⟨2, ![10000, 16]⟩
abbrev S3300000x16 : Shape := ⟨2, ![3300000, 16]⟩
abbrev S1x16 : Shape := ⟨2, ![1, 16]⟩
abbrev S100000x2 : Shape := ⟨2, ![100000, 2]⟩
abbrev S10000x2 : Shape := ⟨2, ![10000, 2]⟩
abbrev S3300000x2 : Shape := ⟨2, ![3300000, 2]⟩
abbrev S1x2 : Shape := ⟨2, ![1, 2]⟩
abbrev S10000 : Shape := ⟨1, ![10000]⟩
abbrev S10000x1 : Shape := ⟨2, ![10000, 1]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x2, .f32⟩
  | .hbm, ⟨7, _⟩ => ⟨S2, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x16, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x16, .f32⟩
  | .hbm, ⟨61, _⟩ => ⟨S3300000x1, .f32⟩
  | .hbm, ⟨62, _⟩ => ⟨S3300000x16, .f32⟩
  | .hbm, ⟨63, _⟩ => ⟨S3300000x16, .f32⟩
  | .hbm, ⟨64, _⟩ => ⟨S_, .f32⟩
  | .hbm, ⟨65, _⟩ => ⟨S100000x16, .f32⟩
  | .hbm, ⟨66, _⟩ => ⟨S3300000x1, .i32⟩
  | .hbm, ⟨67, _⟩ => ⟨S100000x16, .f32⟩
  | .hbm, ⟨68, _⟩ => ⟨S1x16, .f32⟩
  | .hbm, ⟨69, _⟩ => ⟨S100000x16, .f32⟩
  | .hbm, ⟨70, _⟩ => ⟨S100000x16, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x16, .f32⟩
  | .hbm, ⟨80, _⟩ => ⟨S3300000x1, .f32⟩
  | .hbm, ⟨81, _⟩ => ⟨S3300000x16, .f32⟩
  | .hbm, ⟨82, _⟩ => ⟨S3300000x16, .f32⟩
  | .hbm, ⟨83, _⟩ => ⟨S_, .f32⟩
  | .hbm, ⟨84, _⟩ => ⟨S100000x16, .f32⟩
  | .hbm, ⟨85, _⟩ => ⟨S3300000x1, .i32⟩
  | .hbm, ⟨86, _⟩ => ⟨S100000x16, .f32⟩
  | .hbm, ⟨87, _⟩ => ⟨S1x16, .f32⟩
  | .hbm, ⟨88, _⟩ => ⟨S100000x16, .f32⟩
  | .hbm, ⟨89, _⟩ => ⟨S100000x2, .f32⟩
  | .hbm, ⟨90, _⟩ => ⟨S_, .i32⟩
  | .hbm, ⟨91, _⟩ => ⟨S3300000, .i32⟩
  | .hbm, ⟨92, _⟩ => ⟨S3300000, .i1⟩
  | .hbm, ⟨93, _⟩ => ⟨S_, .i32⟩
  | .hbm, ⟨94, _⟩ => ⟨S3300000, .i32⟩
  | .hbm, ⟨95, _⟩ => ⟨S3300000, .i32⟩
  | .hbm, ⟨96, _⟩ => ⟨S3300000, .i32⟩
  | .hbm, ⟨97, _⟩ => ⟨S3300000x1, .i32⟩
  | .hbm, ⟨98, _⟩ => ⟨S3300000x2, .f32⟩
  | .hbm, ⟨99, _⟩ => ⟨S3300000x1, .f32⟩
  | .hbm, ⟨100, _⟩ => ⟨S3300000x2, .f32⟩
  | .hbm, ⟨101, _⟩ => ⟨S3300000x2, .f32⟩
  | .hbm, ⟨102, _⟩ => ⟨S_, .f32⟩
  | .hbm, ⟨103, _⟩ => ⟨S100000x2, .f32⟩
  | .hbm, ⟨104, _⟩ => ⟨S3300000x1, .i32⟩
  | .hbm, ⟨105, _⟩ => ⟨S100000x2, .f32⟩
  | .hbm, ⟨106, _⟩ => ⟨S1x2, .f32⟩
  | .hbm, ⟨107, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S10000x16, .f32⟩
  | .local _ .vmem, ⟨17, _⟩ => ⟨S1x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S16x2, .f32⟩
  | .local _ .vmem, ⟨23, _⟩ => ⟨S10000x2, .f32⟩
  | .local _ .vmem, ⟨24, _⟩ => ⟨S10000x2, .f32⟩
  | .local _ .vmem, ⟨25, _⟩ => ⟨S10000x2, .f32⟩
  | .local _ .vmem, ⟨26, _⟩ => ⟨S10000x2, .f32⟩
  | .local _ .vmem, ⟨27, _⟩ => ⟨S1x2, .f32⟩
  | .local _ .vmem, ⟨28, _⟩ => ⟨S10000x2, .f32⟩
  | .local _ .vmem, ⟨29, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  reduces_S10000x2_S10000 : S10000x2.Reduces [1] S10000
  shapeCasts_S10000_S10000x1 : S10000.ShapeCasts S10000x1
  broadcasts_S10000x1_S10000x2 : S10000x1.Broadcasts S10000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x16_S10000x16_1_0_0_1_n_n_wf : DotDims.WF S10000x128 S128x16 S10000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S10000x16_S16x16_S10000x16_1_0_0_1_n_n_wf : DotDims.WF S10000x16 S16x16 S10000x16 [1] [0] [0] [1] [] []
  dot_S10000x16_S16x2_S10000x2_1_0_0_1_n_n_wf : DotDims.WF S10000x16 S16x2 S10000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x16.size a ≤ S100000x16.size a
  hwx3_2 : ∀ i : grid3.Coords, EltTy.bits .f32 = 32 ∨ (Rect.block (s := S100000x16) S10000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S100000x16.size a
  hwx4_0 : ∀ i : grid4.Coords, EltTy.bits .f32 = 32 ∨ (Rect.block (s := S100000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x2.size a ≤ S16x2.size a
  hwx4_1 : ∀ i : grid4.Coords, EltTy.bits .f32 = 32 ∨ (Rect.block (s := S16x2) S16x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x2.size a ≤ S100000x2.size a
  hwx4_2 : ∀ i : grid4.Coords, EltTy.bits .f32 = 32 ∨ (Rect.block (s := S100000x2) S10000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S100000x2.size a
  hwx5_0 : ∀ i : grid5.Coords, EltTy.bits .f32 = 32 ∨ (Rect.block (s := S100000x2) S10000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x2.size a ≤ S100000x2.size a
  hwx5_2 : ∀ i : grid5.Coords, EltTy.bits .f32 = 32 ∨ (Rect.block (s := S100000x2) S10000x2.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S16x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 132
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x16, .f32⟩
  | 5 => ⟨S16, .f32⟩
  | 6 => ⟨S16x2, .f32⟩
  | 7 => ⟨S2, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x16, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x16, .f32⟩
  | 61 => ⟨S3300000x1, .f32⟩
  | 62 => ⟨S3300000x16, .f32⟩
  | 63 => ⟨S3300000x16, .f32⟩
  | 64 => ⟨S_, .f32⟩
  | 65 => ⟨S100000x16, .f32⟩
  | 66 => ⟨S3300000x1, .i32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000x16, .f32⟩
  | 73 => ⟨S100000x16, .f32⟩
  | 74 => ⟨S100000x16, .f32⟩
  | 75 => ⟨S_, .i32⟩
  | 76 => ⟨S3300000, .i32⟩
  | 77 => ⟨S3300000, .i1⟩
  | 78 => ⟨S_, .i32⟩
  | 79 => ⟨S3300000, .i32⟩
  | 80 => ⟨S3300000, .i32⟩
  | 81 => ⟨S3300000, .i32⟩
  | 82 => ⟨S3300000x1, .i32⟩
  | 83 => ⟨S3300000x16, .f32⟩
  | 84 => ⟨S3300000x1, .f32⟩
  | 85 => ⟨S3300000x16, .f32⟩
  | 86 => ⟨S3300000x16, .f32⟩
  | 87 => ⟨S_, .f32⟩
  | 88 => ⟨S100000x16, .f32⟩
  | 89 => ⟨S3300000x1, .i32⟩
  | 90 => ⟨S100000x16, .f32⟩
  | 91 => ⟨S1x16, .f32⟩
  | 92 => ⟨S100000x16, .f32⟩
  | 93 => ⟨S100000x16, .f32⟩
  | 94 => ⟨S_, .f32⟩
  | 95 => ⟨S100000x16, .f32⟩
  | 96 => ⟨S100000x16, .f32⟩
  | 97 => ⟨S100000x2, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000x2, .f32⟩
  | 107 => ⟨S3300000x1, .f32⟩
  | 108 => ⟨S3300000x2, .f32⟩
  | 109 => ⟨S3300000x2, .f32⟩
  | 110 => ⟨S_, .f32⟩
  | 111 => ⟨S100000x2, .f32⟩
  | 112 => ⟨S3300000x1, .i32⟩
  | 113 => ⟨S100000x2, .f32⟩
  | 114 => ⟨S1x2, .f32⟩
  | 115 => ⟨S100000x2, .f32⟩
  | 116 => ⟨S100000x2, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x2, .f32⟩
  | 124 => ⟨S100000x2, .f32⟩
  | 125 => ⟨S100000x2, .f32⟩
  | 126 => ⟨S_, .f32⟩
  | 127 => ⟨S100000, .f32⟩
  | _ => ⟨S100000x128, .f32⟩

abbrev hbmTy0_1 (i : Nat) : BufTy := match i % 128 with
  | 0 => ⟨S100000x1, .f32⟩
  | 1 => ⟨S100000x1, .f32⟩
  | 2 => ⟨S100000x2, .f32⟩
  | 3 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_call3_cst : Ref sig .tc := ⟨.hbm, 117, rfl⟩
abbrev main_call3_v0 : Ref sig .tc := ⟨.hbm, 118, rfl⟩
abbrev main_call3_cst_0 : Ref sig .tc := ⟨.hbm, 119, rfl⟩
abbrev main_call3_v1 : Ref sig .tc := ⟨.hbm, 120, rfl⟩
abbrev main_call3_v2 : Ref sig .tc := ⟨.hbm, 121, rfl⟩
abbrev main_call3_v3 : Ref sig .tc := ⟨.hbm, 122, rfl⟩
abbrev main_call3_v4 : Ref sig .tc := ⟨.hbm, 123, rfl⟩
abbrev main_call3_v5 : Ref sig .tc := ⟨.hbm, 124, rfl⟩
abbrev main_call3_v6 : Ref sig .tc := ⟨.hbm, 125, rfl⟩
abbrev main_call3_cst_1 : Ref sig .tc := ⟨.hbm, 126, rfl⟩
abbrev main_call3_v7 : Ref sig .tc := ⟨.hbm, 127, rfl⟩
abbrev main_call3_v8 : Ref sig .tc := ⟨.hbm, 128, rfl⟩
abbrev main_call3_v9 : Ref sig .tc := ⟨.hbm, 129, rfl⟩
abbrev main_call3_v10 : Ref sig .tc := ⟨.hbm, 130, rfl⟩
abbrev main_v85 : Ref sig .tc := ⟨.hbm, 131, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.LibSegmentRows.lean ====
/-
  Taking rows of a matrix by an index column, and summing rows into segments, read at coordinates.

  `x[src]` for `x : [N, C]` and an index column `src : [E, 1]` reads, at `(e, c)`, the entry `(row e, c)`
  of `x`, where `row e` is the index `src[e, 0]` read as a signed integer and clamped into `[0, N - 1]`.
  The accumulating scatter of the rows of `u : [E, C]` into `[N, C]` along an index column `dst : [E, 1]`
  adds to entry `(r, c)` the sum of `u (e, c)` over the edges `e` whose index `dst[e, 0]`, read as a signed
  integer and NOT clamped, is `r`; an edge whose index is outside `[0, N)` contributes nowhere. The same
  for a vector `[E]` scattered into `[N]`.
-/
import Idealize.ShloMosaic.PureOps.Ideal
import Idealize.ShloMosaic.PureOps.Ideal.Laws
import Idealize.ShloMosaic.Lib.ValueIdx

noncomputable section

open Idealize.ShloMosaic Idealize.ShloMosaic.ValueIdx

namespace Cert.SegmentRows

/-- The dimension numbers of `x[src]` for `x : [N, C]` and `src : [E, 1]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its index read signed and clamped into `[0, N - 1]`. -/
def takeRow {N E w : Nat} (hN : 0 < N) (idx : IVec ⟨2, ![E, 1]⟩ w) (e : Fin E) : Fin N :=
  ⟨min (idx (ix2 e 0)).toInt.toNat (N - 1), by omega⟩

/-- THE ROW GATHER READ AT `(e, c)`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (takeRow hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    have h1 : (1 : Fin 2) ∉ (rowGatherDims N E C wf).startIndexMap := by
      show (1 : Fin 2) ∉ ([0] : List (Fin 2)); decide
    have hk : (1 : Fin 2) ∈ (rowGatherDims N E C wf).sKept :=
      (GatherDims.mem_sKept _ _).mpr ⟨by show (1 : Fin 2) ∉ ([0] : List (Fin 2)); decide, List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-- The dimension numbers of the row scatter `[E, C]` into `[N, C]` along `dst : [E, 1]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The edges whose index, read signed, is row `r`. -/
def segment {N E w : Nat} (idx : IVec ⟨2, ![E, 1]⟩ w) (r : Fin N) : Finset (Fin E) :=
  Finset.univ.filter fun e => (idx (ix2 e 0)).toInt = (r.val : Int)

/-- On axis 0 the window of update `(e, c')` starts at the signed index of edge `e`. -/
theorem rows_start0 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On axis 1 it starts at `0`: the index names axis 0 only. -/
theorem rows_start1 {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) :
    (rowScatterDims N E C wf).start (ix2 e c') idx 1 = 0 := by
  unfold ScatterDims.start
  rw [dif_neg (by show (1 : Fin 2) ∉ ([0] : List (Fin 2)); decide)]

/-- Axis 0 is inserted: no window coordinate there. -/
theorem rows_window0 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 0 = 0 := by
  unfold ScatterDims.window
  rw [dif_neg (by show (0 : Fin 2) ∉ (List.finRange 2).filter (· ∉ ([0] : List (Fin 2))); decide)]

/-- On axis 1 the window coordinate is the update's column. -/
theorem rows_window1 {N E C : Nat}
    (wf : ScatterDims.WF ⟨2, ![N, C]⟩ ⟨2, ![E, 1]⟩ ⟨2, ![E, C]⟩ [1] [0] [0] 1) (e : Fin E) (c' : Fin C) :
    (rowScatterDims N E C wf).window (ix2 e c') 1 = c'.val := by
  unfold ScatterDims.window
  rw [dif_pos (by show (1 : Fin 2) ∈ (List.finRange 2).filter (· ∉ ([0] : List (Fin 2))); decide)]
  rfl

/-- Update `(e, c')` lands on `(r, c)` exactly when it is in column `c` and edge `e`'s signed index is `r`. -/
theorem rows_resultIdx_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c' : Fin C) (r : Fin N) (c : Fin C) :
    (rowScatterDims N E C wf).resultIdx? (ix2 e c') idx = some (ix2 r c)
      ↔ c' = c ∧ (idx (ix2 e 0)).toInt = (r.val : Int) := by
  have hs0 := rows_start0 wf idx e c'
  have hs1 := rows_start1 wf idx e c'
  have hw0 := rows_window0 wf e c'
  have hw1 := rows_window1 wf e c'
  have hr : r.val < N := r.isLt
  have hc : c.val < C := c.isLt
  have hc' : c'.val < C := c'.isLt
  unfold ScatterDims.resultIdx?
  split
  · rename_i h
    rw [Option.some.injEq]
    have h0 := h 0
    have h1 := h 1
    constructor
    · intro hf
      have e0 : ((rowScatterDims N E C wf).start (ix2 e c') idx 0
          + ((rowScatterDims N E C wf).window (ix2 e c') 0 : Int)).toNat = r.val :=
        congrArg Fin.val (congrFun hf 0)
      have e1 : ((rowScatterDims N E C wf).start (ix2 e c') idx 1
          + ((rowScatterDims N E C wf).window (ix2 e c') 1 : Int)).toNat = c.val :=
        congrArg Fin.val (congrFun hf 1)
      rw [hs0, hw0] at h0 e0
      rw [hs1, hw1] at e1
      exact ⟨Fin.ext (by omega), by omega⟩
    · rintro ⟨hcc, ht⟩
      funext a; refine Fin.ext ?_
      match a with
      | ⟨0, _⟩ =>
        show ((rowScatterDims N E C wf).start (ix2 e c') idx 0
          + ((rowScatterDims N E C wf).window (ix2 e c') 0 : Int)).toNat = r.val
        rw [hs0, hw0]; omega
      | ⟨1, _⟩ =>
        show ((rowScatterDims N E C wf).start (ix2 e c') idx 1
          + ((rowScatterDims N E C wf).window (ix2 e c') 1 : Int)).toNat = c.val
        rw [hs1, hw1, hcc]; omega
  · rename_i h
    constructor
    · intro hf; exact absurd hf (by simp)
    · rintro ⟨hcc, ht⟩
      exfalso; apply h
      intro a
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

/-- THE ACCUMULATING ROW SCATTER READ AT `(r, c)`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Ideal.hostScatterAdd (rowScatterDims N E C wf) x idx upd (ix2 r c)
      = x (ix2 r c) + ∑ e ∈ segment idx r, upd (ix2 e c) := by
  unfold Ideal.hostScatterAdd
  congr 1
  rw [Finset.sum_filter, sum_idx2]
  unfold segment
  rw [Finset.sum_filter]
  refine Finset.sum_congr rfl fun e _ => ?_
  have hcong : ∀ c' : Fin C,
      (if (rowScatterDims N E C wf).resultIdx? (ix2 e c') idx = some (ix2 r c) then upd (ix2 e c') else 0)
        = if c' = c ∧ (idx (ix2 e 0)).toInt = (r.val : Int) then upd (ix2 e c') else 0 :=
    fun c' => if_congr (rows_resultIdx_iff wf idx e c' r c) rfl rfl
  rw [Finset.sum_congr rfl fun c' _ => hcong c']
  by_cases ht : (idx (ix2 e 0)).toInt = (r.val : Int)
  · simp only [ht, and_true, if_true]
    rw [Finset.sum_ite_eq' Finset.univ c fun c' => upd (ix2 e c')]
    simp
  · simp only [ht, and_false, if_false, Finset.sum_const_zero]

/-- The dimension numbers of the scatter of a vector `[E]` into `[N]` along `dst : [E, 1]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the signed index of edge `e`. -/
theorem vec_start0 {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The one operand axis is inserted: no window coordinate. -/
theorem vec_window0 {N E : Nat}
    (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (by show (0 : Fin 1) ∉ (List.finRange 1).filter (· ∉ ([0] : List (Fin 1))); decide)]

/-- Update `e` lands on `r` exactly when edge `e`'s signed index is `r`. -/
theorem vec_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (vecScatterDims N E wf).resultIdx? (ix1 e) idx = some (ix1 r)
      ↔ (idx (ix2 e 0)).toInt = (r.val : Int) := by
  have hs0 := vec_start0 wf idx e
  have hw0 := vec_window0 wf e
  have hr : r.val < N := r.isLt
  unfold ScatterDims.resultIdx?
  split
  · rename_i h
    rw [Option.some.injEq]
    have h0 := h 0
    constructor
    · intro hf
      have e0 : ((vecScatterDims N E wf).start (ix1 e) idx 0
          + ((vecScatterDims N E wf).window (ix1 e) 0 : Int)).toNat = r.val :=
        congrArg Fin.val (congrFun hf 0)
      rw [hs0, hw0] at h0 e0
      omega
    · intro ht
      funext a; refine Fin.ext ?_
      match a with
      | ⟨0, _⟩ =>
        show ((vecScatterDims N E wf).start (ix1 e) idx 0
          + ((vecScatterDims N E wf).window (ix1 e) 0 : Int)).toNat = r.val
        rw [hs0, hw0]; omega
  · rename_i h
    constructor
    · intro hf; exact absurd hf (by simp)
    · intro ht
      exfalso; apply h
      intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0]; omega

/-- THE ACCUMULATING VECTOR SCATTER READ AT `r`. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Ideal.hostScatterAdd (vecScatterDims N E wf) x idx upd (ix1 r)
      = x (ix1 r) + ∑ e ∈ segment idx r, upd (ix1 e) := by
  unfold Ideal.hostScatterAdd
  congr 1
  rw [Finset.sum_filter, sum_idx1]
  unfold segment
  rw [Finset.sum_filter]
  exact Finset.sum_congr rfl fun e _ => if_congr (vec_resultIdx_iff wf idx e r) rfl rfl

end Cert.SegmentRows

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.LibRowMax.lean ====
/-
  The maximum of an `[m, n]` matrix along its second axis, at the exact extended reals and at explicit
  coordinates: at row `r` it is `max` folded over the row's entries `v (r, c)`, `c < n`, from the accumulator's
  value. The device's lane reduction and the host's one-operand reduce with a `max` body both read this way.
-/
import proofs.«169351_j80333068304388_1_alg».proof.Proof.LibRows

noncomputable section

open Idealize.ShloMosaic Idealize.ShloMosaic.ValueIdx

namespace Cert.LibRowMax

/-- Composing with "put column `k` back into row `r`" reads the row's entries. -/
theorem comp_lift_row {α : Type} {m n : ℕ} (v : (⟨2, ![m, n]⟩ : Shape).Idx → α)
    (h : (⟨2, ![m, n]⟩ : Shape).Reduces [1] (⟨1, ![m]⟩ : Shape)) (r : Fin m) :
    (v ∘ h.lift (ix1 r)) = fun k : Fin ((⟨2, ![m, n]⟩ : Shape).size 1) => v (ix2 r (⟨k.val, k.isLt⟩ : Fin n)) :=
  funext fun k => congrArg v (Cert.Rows.lift_row h r k)

/-- The device's maximum along the second axis, at row `r`: `max` folded over the row from the accumulator's value. -/
theorem rowMax_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.maximumf.neutral .f32 hφ)
    (r : Fin m) :
    multiReduction .maximumf [1] (⟨1, ![m]⟩ : Shape) v acc h hφ hacc (ix1 r)
      = (Finset.univ : Finset (Fin n)).fold max (Ideal.ofBits .f32 acc) (fun c => v (ix2 r c)) := by
  rw [Ideal.multiReduction_maximumf_single, comp_lift_row]
  rfl

end Cert.LibRowMax

end
-- ==== Proof.LibHostReads.lean ====
/-
  Host array operations read at coordinates, over the extended reals — general facts, for any extents.

  * The accumulating scatters `[E, C] → [N, C]` and `[E] → [N]` along an index column `[E, 1]`, and the row gather
    `[N, C] → [E, C]`, stated for ANY dimension-number record that equals the row / vector one (so a printed record
    is passed with `rfl`): the host operation `Host.scatterAdd` / `Host.gather` itself, not the instance's field.
  * The `broadcast_in_dim` forms of a kept axis: `[m] → [m, 1]` at `(p, 0)`, `[m, 1] → [m, n]` at `(p, q)`,
    `[n] → [1, n]` at `(0, q)`, `[1, n] → [m, n]` at `(p, q)`.
  * The host's maximum and sum along the rows of a matrix (`stablehlo.reduce` over axis 1 with a scalar initial
    value), read at a row: the maximum folded from the initial value, the initial value plus the row's sum — from
    the `ReducesTo` fact alone.
  * Contents carried to a typed reference's buffer type and back (the casts an outlined function's operations
    put around their values cancel in pairs, with no evaluation of the buffer's type).
-/
import proofs.«169351_j80333068304388_1_alg».proof.Proof.LibSegmentRows
import proofs.«169351_j80333068304388_1_alg».proof.Proof.LibRowMax
import Idealize.ShloMosaic.PureOps.Reduce
import Idealize.ShloMosaic.Lib.Pipeline.Value
import Idealize.ShloMosaic.Lib.StableHlo.Run

noncomputable section

open Idealize.ShloMosaic Idealize.ShloMosaic.ValueIdx Cert.SegmentRows

namespace Cert.LibHostReads

variable {N E K C : ℕ}

/-- A host accumulating row scatter with the row dimension numbers, read at `(r, c)`. -/
theorem hostScatter_rows_apply (d : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hd : d = rowScatterDims N E C wf)
    (x : (⟨2, ![N, C]⟩ : Shape).Idx → EReal) (idx : IVec ⟨2, ![E, 1]⟩ 32) (upd : (⟨2, ![E, C]⟩ : Shape).Idx → EReal) (r : Fin N) (c : Fin C) :
    Host.scatterAdd (F := Ideal) (φ := .f32) d x idx upd (ix2 r c) = x (ix2 r c) + ∑ e ∈ segment idx r, upd (ix2 e c) := by
  subst hd
  exact scatterAdd_rows_apply wf x idx upd r c

/-- A host accumulating vector scatter with the vector dimension numbers, read at `r`. -/
theorem hostScatter_vec_apply (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = vecScatterDims N E wf)
    (x : (⟨1, ![N]⟩ : Shape).Idx → EReal) (idx : IVec ⟨2, ![E, 1]⟩ 32) (upd : (⟨1, ![E]⟩ : Shape).Idx → EReal) (r : Fin N) :
    Host.scatterAdd (F := Ideal) (φ := .f32) d x idx upd (ix1 r) = x (ix1 r) + ∑ e ∈ segment idx r, upd (ix1 e) := by
  subst hd
  exact scatterAdd_vec_apply wf x idx upd r

/-- A host row gather with the row dimension numbers, read at `(e, c)`. -/
theorem hostGather_rows_apply {α : Type} (hN : 0 < N) (d : GatherDims ⟨2, ![N, C]⟩ ⟨2, ![E, 1]⟩ ⟨2, ![E, C]⟩)
    (wf : GatherDims.WF ⟨2, ![N, C]⟩ ⟨2, ![E, 1]⟩ ⟨2, ![E, C]⟩ [1] [0] [] [0] [] 1 ![1, C]) (hd : d = rowGatherDims N E C wf)
    (x : (⟨2, ![N, C]⟩ : Shape).Idx → α) (idx : IVec ⟨2, ![E, 1]⟩ 32) (e : Fin E) (c : Fin C) :
    Host.gather d x idx (ix2 e c) = x (ix2 (takeRow hN idx e) c) := by
  subst hd
  exact gather_rows_apply hN wf x idx e c

/-! ## Kept axes, the `broadcast_in_dim` forms -/

variable {α : Type} {m n : ℕ}

/-- `[m] → [m, 1]` read at `(p, 0)`. -/
theorem colInner_apply (u : (⟨1, ![m]⟩ : Shape).Idx → α) (h : (⟨1, ![m]⟩ : Shape).BroadcastsInDim ⟨2, ![m, 1]⟩ ![0]) (p : Fin m) :
    broadcastInDim ⟨2, ![m, 1]⟩ ![0] h u (ix2 p 0) = u (ix1 p) :=
  broadcastInDim_apply ![0] h u (ix2 p 0) (ix1 p) fun a => by
    match a with
    | ⟨0, _⟩ =>
      show p.val = if m = 1 then 0 else p.val
      split_ifs with h1
      · have := p.isLt; omega
      · rfl

/-- `[m, 1] → [m, n]` read at `(p, q)`. -/
theorem colOuter_apply (w : (⟨2, ![m, 1]⟩ : Shape).Idx → α) (h : (⟨2, ![m, 1]⟩ : Shape).BroadcastsInDim ⟨2, ![m, n]⟩ ![0, 1])
    (p : Fin m) (q : Fin n) : broadcastInDim ⟨2, ![m, n]⟩ ![0, 1] h w (ix2 p q) = w (ix2 p 0) :=
  broadcastInDim_apply ![0, 1] h w (ix2 p q) (ix2 p 0) fun a => by
    match a with
    | ⟨0, _⟩ =>
      show p.val = if m = 1 then 0 else p.val
      split_ifs with h1
      · have := p.isLt; omega
      · rfl
    | ⟨1, _⟩ => rfl

/-- `[n] → [1, n]` read at `(0, q)`. -/
theorem rowInner_apply (u : (⟨1, ![n]⟩ : Shape).Idx → α) (h : (⟨1, ![n]⟩ : Shape).BroadcastsInDim ⟨2, ![1, n]⟩ ![1]) (q : Fin n) :
    broadcastInDim ⟨2, ![1, n]⟩ ![1] h u (ix2 0 q) = u (ix1 q) :=
  broadcastInDim_apply ![1] h u (ix2 0 q) (ix1 q) fun a => by
    match a with
    | ⟨0, _⟩ =>
      show q.val = if n = 1 then 0 else q.val
      split_ifs with h1
      · have := q.isLt; omega
      · rfl

/-- `[1, n] → [m, n]` read at `(p, q)`. -/
theorem rowOuter_apply (w : (⟨2, ![1, n]⟩ : Shape).Idx → α) (h : (⟨2, ![1, n]⟩ : Shape).BroadcastsInDim ⟨2, ![m, n]⟩ ![0, 1])
    (p : Fin m) (q : Fin n) : broadcastInDim ⟨2, ![m, n]⟩ ![0, 1] h w (ix2 p q) = w (ix2 0 q) :=
  broadcastInDim_apply ![0, 1] h w (ix2 p q) (ix2 0 q) fun a => by
    match a with
    | ⟨0, _⟩ => rfl
    | ⟨1, _⟩ =>
      show q.val = if n = 1 then 0 else q.val
      split_ifs with h1
      · have := q.isLt; omega
      · rfl

/-! ## Row reductions on the host -/

/-- The host's maximum along the rows at `p`: the maximum folded over the row from the initial value. -/
theorem hostRowMax_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduce (FloatOps.maximumf (F := Ideal) (φ := .f32)) v init h' hu (ix1 p)
      = (Finset.univ : Finset (Fin n)).fold max (init (Shape.Idx.first hu)) (fun c => v (ix2 p c)) := by
  have h : (⟨2, ![m, n]⟩ : Shape).Reduces [1] (⟨1, ![m]⟩ : Shape) := by
    obtain ⟨hr, hs⟩ := h'
    exact ⟨hr, Nat.one_pos, hs⟩
  rw [Host.reduce_eq_fold_single _ v init h' h hu (ix1 p), Cert.LibRowMax.comp_lift_row v h p]
  rfl

/-- The host's sum along the rows at `p`: the initial value plus the sum over the row. -/
theorem hostRowSum_apply (v : FVec Ideal (⟨2, ![m, n]⟩ : Shape) .f32) (init : (⟨0, ![]⟩ : Shape).Idx → EReal)
    (h' : (⟨2, ![m, n]⟩ : Shape).ReducesTo [1] (⟨1, ![m]⟩ : Shape))
    (hu : 0 < (⟨0, ![]⟩ : Shape).numel) (p : Fin m) :
    Host.reduceAdd (F := Ideal) (φ := .f32) v init h' hu (ix1 p) = init (Shape.Idx.first hu) + ∑ c : Fin n, v (ix2 p c) := by
  have h : (⟨2, ![m, n]⟩ : Shape).Reduces [1] (⟨1, ![m]⟩ : Shape) := by
    obtain ⟨hr, hs⟩ := h'
    exact ⟨hr, Nat.one_pos, hs⟩
  simp only [Host.reduceAdd, Ideal.hostReduceAdd_def]
  rw [Ideal.hostReduceAdd_single h' h]
  refine congrArg (_ + ·) (Finset.sum_congr rfl fun k _ => ?_)
  exact congrArg v (Cert.Rows.lift_row h p k)

/-! ## Typed references -/

open Idealize.ShloMosaic.StableHlo in
/-- Contents at a value's type carried to its buffer's type and back. -/
theorem ofBuf_toBuf {sig : RefSig} {Val : EltTy → Type} {T : BufTy} (y : TRef sig T) (v : T.Contents Val) :
    y.ofBuf (y.toBuf v) = v := by
  obtain ⟨r, e, h1, h2⟩ := y
  subst e
  rfl

end Cert.LibHostReads

end
-- ==== Proof.RefRun.lean ====
/-
  The reference's run, read stage by stage.

  The reference is one straight line of 124 host operations, so every weakly fair execution ends with each buffer at the fold of the
  operations over the launch memory. The fold is read in four stretches: the edge lists with self loops and the normalization
  (operations 1–43); then one stretch per layer (44–66, 67–89, 90–124), each a `dot_general`, the gather / scale / scatter, the
  bias and the activation. A stretch applied to any buffer contents that hold the earlier stages at the live buffers leaves
  the later stages (operation for operation: the stage definitions are the operations' functions composed), and leaves the
  buffers it does not write as they were. Composing the four gives the result buffer at the last stage as a function of
  the launch arrays, and the argument arrays as launched.
-/
import proofs.«169351_j80333068304388_1_alg».proof.Proof.RefRunP
import proofs.«169351_j80333068304388_1_alg».proof.Proof.RefReadP
import proofs.«169351_j80333068304388_1_alg».proof.Proof.LibHostReads

set_option maxRecDepth 16384

noncomputable section

open Idealize.ShloMosaic Idealize.ShloMosaic.TcCoe Idealize.SL.Sem Idealize.ShloMosaic.StableHlo

namespace Cert.ReferenceIdeal.Staged

open Cert.ReferenceIdeal Cert.ReferenceIdeal.Gen Cert.ReferenceIdeal.ValueP Cert.ReferenceIdeal.ReadP

variable {F : FTy → Type} [FloatOps F]

/-- Operations run one list after another are their concatenation run as one. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The line as its four stretches. -/
theorem ops_split : (ops : List (HloOp τ sig (Elt F)))
    = (List.take 43 ops) ++ ((List.take 23 (List.drop 43 ops)) ++ ((List.take 23 (List.drop 66 ops)) ++ (List.drop 89 ops))) := by
  have e1 : List.drop 66 (ops : List (HloOp τ sig (Elt F))) = List.drop 23 (List.drop 43 ops) := by rw [List.drop_drop]
  have e2 : List.drop 89 (ops : List (HloOp τ sig (Elt F))) = List.drop 23 (List.drop 66 ops) := by rw [List.drop_drop]
  rw [e2, List.take_append_drop, e1, List.take_append_drop, List.take_append_drop]

variable (x0 : (⟨S100000x128, .f32⟩ : BufTy).Contents (Elt F)) (x1 : (⟨S2x3200000, .i32⟩ : BufTy).Contents (Elt F))
  (x2 : (⟨S128x16, .f32⟩ : BufTy).Contents (Elt F)) (x3 : (⟨S16, .f32⟩ : BufTy).Contents (Elt F))
  (x4 : (⟨S16x16, .f32⟩ : BufTy).Contents (Elt F)) (x5 : (⟨S16, .f32⟩ : BufTy).Contents (Elt F))
  (x6 : (⟨S16x2, .f32⟩ : BufTy).Contents (Elt F)) (x7 : (⟨S2, .f32⟩ : BufTy).Contents (Elt F))
  (W : Valuation τ sig (Elt F))

/-! ## Operations 1–43: the edge lists with self loops and the normalization -/

theorem A_v3 : after (List.take 43 ops) W (Proc.devRef .tc main_v3) = val_main_v3 (F := F) (W (Proc.devRef .tc main_arg1)) := by
  simp only [ops, List.take_succ_cons, List.take_zero, List.drop_succ_cons, List.drop_zero]
  after_results_simp
  rfl

theorem A_v6 : after (List.take 43 ops) W (Proc.devRef .tc main_v6) = val_main_v6 (F := F) (W (Proc.devRef .tc main_arg1)) := by
  simp only [ops, List.take_succ_cons, List.take_zero, List.drop_succ_cons, List.drop_zero]
  after_results_simp
  rfl

theorem A_v31 : after (List.take 43 ops) W (Proc.devRef .tc main_v31) = val_main_v31 (F := F) (W (Proc.devRef .tc main_arg1)) := by
  simp only [ops, List.take_succ_cons, List.take_zero, List.drop_succ_cons, List.drop_zero]
  after_results_simp
  rfl

theorem A_keep_arg0 : after (List.take 43 ops) W (Proc.devRef .tc main_arg0) = W (Proc.devRef .tc main_arg0) := by
  simp only [ops, List.take_succ_cons, List.take_zero, List.drop_succ_cons, List.drop_zero]
  after_results_simp

theorem A_keep_arg2 : after (List.take 43 ops) W (Proc.devRef .tc main_arg2) = W (Proc.devRef .tc main_arg2) := by
  simp only [ops, List.take_succ_cons, List.take_zero, List.drop_succ_cons, List.drop_zero]
  after_results_simp

theorem A_keep_arg3 : after (List.take 43 ops) W (Proc.devRef .tc main_arg3) = W (Proc.devRef .tc main_arg3) := by
  simp only [ops, List.take_succ_cons, List.take_zero, List.drop_succ_cons, List.drop_zero]
  after_results_simp

theorem A_keep_arg4 : after (List.take 43 ops) W (Proc.devRef .tc main_arg4) = W (Proc.devRef .tc main_arg4) := by
  simp only [ops, List.take_succ_cons, List.take_zero, List.drop_succ_cons, List.drop_zero]
  after_results_simp

theorem A_keep_arg5 : after (List.take 43 ops) W (Proc.devRef .tc main_arg5) = W (Proc.devRef .tc main_arg5) := by
  simp only [ops, List.take_succ_cons, List.take_zero, List.drop_succ_cons, List.drop_zero]
  after_results_simp

theorem A_keep_arg6 : after (List.take 43 ops) W (Proc.devRef .tc main_arg6) = W (Proc.devRef .tc main_arg6) := by
  simp only [ops, List.take_succ_cons, List.take_zero, List.drop_succ_cons, List.drop_zero]
  after_results_simp

theorem A_keep_arg7 : after (List.take 43 ops) W (Proc.devRef .tc main_arg7) = W (Proc.devRef .tc main_arg7) := by
  simp only [ops, List.take_succ_cons, List.take_zero, List.drop_succ_cons, List.drop_zero]
  after_results_simp

theorem A_keep_arg1 : after (List.take 43 ops) W (Proc.devRef .tc main_arg1) = W (Proc.devRef .tc main_arg1) := by
  simp only [ops, List.take_succ_cons, List.take_zero, List.drop_succ_cons, List.drop_zero]
  after_results_simp

/-! ## Operations 44–66: the first layer -/

theorem B_v49 (h3 : W (Proc.devRef .tc main_v3) = val_main_v3 (F := F) x1) (h6 : W (Proc.devRef .tc main_v6) = val_main_v6 (F := F) x1)
    (h31 : W (Proc.devRef .tc main_v31) = val_main_v31 (F := F) x1) (h0 : W (Proc.devRef .tc main_arg0) = x0) (h2 : W (Proc.devRef .tc main_arg2) = x2)
    (ha : W (Proc.devRef .tc main_arg3) = x3) :
    after (List.take 23 (List.drop 43 ops)) W (Proc.devRef .tc main_v49) = val_main_v49 (F := F) x0 x1 x2 x3 := by
  simp only [ops, List.take_succ_cons, List.take_zero, List.drop_succ_cons, List.drop_zero]
  after_results_simp
  rw [h3, h6, h31, h0, h2, ha]
  rfl

theorem B_keep_v3 : after (List.take 23 (List.drop 43 ops)) W (Proc.devRef .tc main_v3) = W (Proc.devRef .tc main_v3) := by
  simp only [ops, List.take_succ_cons, List.take_zero, List.drop_succ_cons, List.drop_zero]
  after_results_simp

theorem B_keep_v6 : after (List.take 23 (List.drop 43 ops)) W (Proc.devRef .tc main_v6) = W (Proc.devRef .tc main_v6) := by
  simp only [ops, List.take_succ_cons, List.take_zero, List.drop_succ_cons, List.drop_zero]
  after_results_simp

theorem B_keep_v31 : after (List.take 23 (List.drop 43 ops)) W (Proc.devRef .tc main_v31) = W (Proc.devRef .tc main_v31) := by
  simp only [ops, List.take_succ_cons, List.take_zero, List.drop_succ_cons, List.drop_zero]
  after_results_simp

theorem B_keep_arg4 : after (List.take 23 (List.drop 43 ops)) W (Proc.devRef .tc main_arg4) = W (Proc.devRef .tc main_arg4) := by
  simp only [ops, List.take_succ_cons, List.take_zero, List.drop_succ_cons, List.drop_zero]
  after_results_simp

theorem B_keep_arg5 : after (List.take 23 (List.drop 43 ops)) W (Proc.devRef .tc main_arg5) = W (Proc.devRef .tc main_arg5) := by
  simp only [ops, List.take_succ_cons, List.take_zero, List.drop_succ_cons, List.drop_zero]
  after_results_simp

theorem B_keep_arg6 : after (List.take 23 (List.drop 43 ops)) W (Proc.devRef .tc main_arg6) = W (Proc.devRef .tc main_arg6) := by
  simp only [ops, List.take_succ_cons, List.take_zero, List.drop_succ_cons, List.drop_zero]
  after_results_simp

theorem B_keep_arg7 : after (List.take 23 (List.drop 43 ops)) W (Proc.devRef .tc main_arg7) = W (Proc.devRef .tc main_arg7) := by
  simp only [ops, List.take_succ_cons, List.take_zero, List.drop_succ_cons, List.drop_zero]
  after_results_simp

theorem B_keep_arg0 : after (List.take 23 (List.drop 43 ops)) W (Proc.devRef .tc main_arg0) = W (Proc.devRef .tc main_arg0) := by
  simp only [ops, List.take_succ_cons, List.take_zero, List.drop_succ_cons, List.drop_zero]
  after_results_simp

theorem B_keep_arg1 : after (List.take 23 (List.drop 43 ops)) W (Proc.devRef .tc main_arg1) = W (Proc.devRef .tc main_arg1) := by
  simp only [ops, List.take_succ_cons, List.take_zero, List.drop_succ_cons, List.drop_zero]
  after_results_simp

theorem B_keep_arg2 : after (List.take 23 (List.drop 43 ops)) W (Proc.devRef .tc main_arg2) = W (Proc.devRef .tc main_arg2) := by
  simp only [ops, List.take_succ_cons, List.take_zero, List.drop_succ_cons, List.drop_zero]
  after_results_simp

theorem B_keep_arg3 : after (List.take 23 (List.drop 43 ops)) W (Proc.devRef .tc main_arg3) = W (Proc.devRef .tc main_arg3) := by
  simp only [ops, List.take_succ_cons, List.take_zero, List.drop_succ_cons, List.drop_zero]
  after_results_simp

/-! ## Operations 67–89: the second layer -/

theorem C_v67 (h3 : W (Proc.devRef .tc main_v3) = val_main_v3 (F := F) x1) (h6 : W (Proc.devRef .tc main_v6) = val_main_v6 (F := F) x1)
    (h31 : W (Proc.devRef .tc main_v31) = val_main_v31 (F := F) x1) (hp : W (Proc.devRef .tc main_v49) = val_main_v49 (F := F) x0 x1 x2 x3)
    (hw : W (Proc.devRef .tc main_arg4) = x4) (ha : W (Proc.devRef .tc main_arg5) = x5) :
    after (List.take 23 (List.drop 66 ops)) W (Proc.devRef .tc main_v67) = val_main_v67 (F := F) x0 x1 x2 x3 x4 x5 := by
  simp only [ops, List.take_succ_cons, List.take_zero, List.drop_succ_cons, List.drop_zero]
  after_results_simp
  rw [h3, h6, h31, hp, hw, ha]
  rfl

theorem C_keep_v3 : after (List.take 23 (List.drop 66 ops)) W (Proc.devRef .tc main_v3) = W (Proc.devRef .tc main_v3) := by
  simp only [ops, List.take_succ_cons, List.take_zero, List.drop_succ_cons, List.drop_zero]
  after_results_simp

theorem C_keep_v6 : after (List.take 23 (List.drop 66 ops)) W (Proc.devRef .tc main_v6) = W (Proc.devRef .tc main_v6) := by
  simp only [ops, List.take_succ_cons, List.take_zero, List.drop_succ_cons, List.drop_zero]
  after_results_simp

theorem C_keep_v31 : after (List.take 23 (List.drop 66 ops)) W (Proc.devRef .tc main_v31) = W (Proc.devRef .tc main_v31) := by
  simp only [ops, List.take_succ_cons, List.take_zero, List.drop_succ_cons, List.drop_zero]
  after_results_simp

theorem C_keep_arg6 : after (List.take 23 (List.drop 66 ops)) W (Proc.devRef .tc main_arg6) = W (Proc.devRef .tc main_arg6) := by
  simp only [ops, List.take_succ_cons, List.take_zero, List.drop_succ_cons, List.drop_zero]
  after_results_simp

theorem C_keep_arg7 : after (List.take 23 (List.drop 66 ops)) W (Proc.devRef .tc main_arg7) = W (Proc.devRef .tc main_arg7) := by
  simp only [ops, List.take_succ_cons, List.take_zero, List.drop_succ_cons, List.drop_zero]
  after_results_simp

theorem C_keep_arg0 : after (List.take 23 (List.drop 66 ops)) W (Proc.devRef .tc main_arg0) = W (Proc.devRef .tc main_arg0) := by
  simp only [ops, List.take_succ_cons, List.take_zero, List.drop_succ_cons, List.drop_zero]
  after_results_simp

theorem C_keep_arg1 : after (List.take 23 (List.drop 66 ops)) W (Proc.devRef .tc main_arg1) = W (Proc.devRef .tc main_arg1) := by
  simp only [ops, List.take_succ_cons, List.take_zero, List.drop_succ_cons, List.drop_zero]
  after_results_simp

theorem C_keep_arg2 : after (List.take 23 (List.drop 66 ops)) W (Proc.devRef .tc main_arg2) = W (Proc.devRef .tc main_arg2) := by
  simp only [ops, List.take_succ_cons, List.take_zero, List.drop_succ_cons, List.drop_zero]
  after_results_simp

theorem C_keep_arg3 : after (List.take 23 (List.drop 66 ops)) W (Proc.devRef .tc main_arg3) = W (Proc.devRef .tc main_arg3) := by
  simp only [ops, List.take_succ_cons, List.take_zero, List.drop_succ_cons, List.drop_zero]
  after_results_simp

theorem C_keep_arg4 : after (List.take 23 (List.drop 66 ops)) W (Proc.devRef .tc main_arg4) = W (Proc.devRef .tc main_arg4) := by
  simp only [ops, List.take_succ_cons, List.take_zero, List.drop_succ_cons, List.drop_zero]
  after_results_simp

theorem C_keep_arg5 : after (List.take 23 (List.drop 66 ops)) W (Proc.devRef .tc main_arg5) = W (Proc.devRef .tc main_arg5) := by
  simp only [ops, List.take_succ_cons, List.take_zero, List.drop_succ_cons, List.drop_zero]
  after_results_simp

/-! ## Operations 90–124: the third layer -/

theorem D_v85 (h3 : W (Proc.devRef .tc main_v3) = val_main_v3 (F := F) x1) (h6 : W (Proc.devRef .tc main_v6) = val_main_v6 (F := F) x1)
    (h31 : W (Proc.devRef .tc main_v31) = val_main_v31 (F := F) x1) (hp : W (Proc.devRef .tc main_v67) = val_main_v67 (F := F) x0 x1 x2 x3 x4 x5)
    (hw : W (Proc.devRef .tc main_arg6) = x6) (ha : W (Proc.devRef .tc main_arg7) = x7) :
    after (List.drop 89 ops) W (Proc.devRef .tc main_v85) = val_main_v85 (F := F) x0 x1 x2 x3 x4 x5 x6 x7 := by
  simp only [ops, List.take_succ_cons, List.take_zero, List.drop_succ_cons, List.drop_zero]
  after_results_simp
  rw [h3, h6, h31, hp, hw, ha]
  simp only [Cert.LibHostReads.ofBuf_toBuf]
  rfl

theorem D_keep_arg0 : after (List.drop 89 ops) W (Proc.devRef .tc main_arg0) = W (Proc.devRef .tc main_arg0) := by
  simp only [ops, List.take_succ_cons, List.take_zero, List.drop_succ_cons, List.drop_zero]
  after_results_simp

theorem D_keep_arg1 : after (List.drop 89 ops) W (Proc.devRef .tc main_arg1) = W (Proc.devRef .tc main_arg1) := by
  simp only [ops, List.take_succ_cons, List.take_zero, List.drop_succ_cons, List.drop_zero]
  after_results_simp

theorem D_keep_arg2 : after (List.drop 89 ops) W (Proc.devRef .tc main_arg2) = W (Proc.devRef .tc main_arg2) := by
  simp only [ops, List.take_succ_cons, List.take_zero, List.drop_succ_cons, List.drop_zero]
  after_results_simp

theorem D_keep_arg3 : after (List.drop 89 ops) W (Proc.devRef .tc main_arg3) = W (Proc.devRef .tc main_arg3) := by
  simp only [ops, List.take_succ_cons, List.take_zero, List.drop_succ_cons, List.drop_zero]
  after_results_simp

theorem D_keep_arg4 : after (List.drop 89 ops) W (Proc.devRef .tc main_arg4) = W (Proc.devRef .tc main_arg4) := by
  simp only [ops, List.take_succ_cons, List.take_zero, List.drop_succ_cons, List.drop_zero]
  after_results_simp

theorem D_keep_arg5 : after (List.drop 89 ops) W (Proc.devRef .tc main_arg5) = W (Proc.devRef .tc main_arg5) := by
  simp only [ops, List.take_succ_cons, List.take_zero, List.drop_succ_cons, List.drop_zero]
  after_results_simp

theorem D_keep_arg6 : after (List.drop 89 ops) W (Proc.devRef .tc main_arg6) = W (Proc.devRef .tc main_arg6) := by
  simp only [ops, List.take_succ_cons, List.take_zero, List.drop_succ_cons, List.drop_zero]
  after_results_simp

theorem D_keep_arg7 : after (List.drop 89 ops) W (Proc.devRef .tc main_arg7) = W (Proc.devRef .tc main_arg7) := by
  simp only [ops, List.take_succ_cons, List.take_zero, List.drop_succ_cons, List.drop_zero]
  after_results_simp

/-! ## The whole line -/

/-- The whole line read as its four stretches, one after the other. -/
theorem split_after (W : Valuation τ sig (Elt F)) (b : DevRef τ sig) :
    after ops W b = after (List.drop 89 ops) (after (List.take 23 (List.drop 66 ops)) (after (List.take 23 (List.drop 43 ops)) (after (List.take 43 ops) W))) b :=
  (congrArg (fun l => after l W b) (ops_split (F := F))).trans
    (congrFun ((after_append _ _ W).trans ((after_append _ _ _).trans (after_append _ _ _))) b)

/-- The result buffer after the whole line, from contents `W`: the last stage of the argument arrays' contents in `W`. -/
theorem result_of (W : Valuation τ sig (Elt F)) :
    after ops W (Proc.devRef .tc main_v85)
      = val_main_v85 (F := F) (W (Proc.devRef .tc main_arg0)) (W (Proc.devRef .tc main_arg1)) (W (Proc.devRef .tc main_arg2)) (W (Proc.devRef .tc main_arg3))
          (W (Proc.devRef .tc main_arg4)) (W (Proc.devRef .tc main_arg5)) (W (Proc.devRef .tc main_arg6)) (W (Proc.devRef .tc main_arg7)) := by
  refine (split_after W _).trans ?_
  refine D_v85 _ _ _ _ _ _ _ _ _ ?_ ?_ ?_ ?_ ?_ ?_
  · rw [C_keep_v3, B_keep_v3]; exact A_v3 _
  · rw [C_keep_v6, B_keep_v6]; exact A_v6 _
  · rw [C_keep_v31, B_keep_v31]; exact A_v31 _
  · refine C_v67 _ _ _ _ _ _ _ ?_ ?_ ?_ ?_ ?_ ?_
    · rw [B_keep_v3]; exact A_v3 _
    · rw [B_keep_v6]; exact A_v6 _
    · rw [B_keep_v31]; exact A_v31 _
    · exact B_v49 _ _ _ _ _ (A_v3 _) (A_v6 _) (A_v31 _) (A_keep_arg0 _) (A_keep_arg2 _) (A_keep_arg3 _)
    · rw [B_keep_arg4, A_keep_arg4]
    · rw [B_keep_arg5, A_keep_arg5]
  · rw [C_keep_arg6, B_keep_arg6, A_keep_arg6]
  · rw [C_keep_arg7, B_keep_arg7, A_keep_arg7]

theorem arg0_of (W : Valuation τ sig (Elt F)) : after ops W (Proc.devRef .tc main_arg0) = W (Proc.devRef .tc main_arg0) :=
  (split_after W _).trans (by rw [D_keep_arg0, C_keep_arg0, B_keep_arg0, A_keep_arg0])
theorem arg1_of (W : Valuation τ sig (Elt F)) : after ops W (Proc.devRef .tc main_arg1) = W (Proc.devRef .tc main_arg1) :=
  (split_after W _).trans (by rw [D_keep_arg1, C_keep_arg1, B_keep_arg1, A_keep_arg1])
theorem arg2_of (W : Valuation τ sig (Elt F)) : after ops W (Proc.devRef .tc main_arg2) = W (Proc.devRef .tc main_arg2) :=
  (split_after W _).trans (by rw [D_keep_arg2, C_keep_arg2, B_keep_arg2, A_keep_arg2])
theorem arg3_of (W : Valuation τ sig (Elt F)) : after ops W (Proc.devRef .tc main_arg3) = W (Proc.devRef .tc main_arg3) :=
  (split_after W _).trans (by rw [D_keep_arg3, C_keep_arg3, B_keep_arg3, A_keep_arg3])
theorem arg4_of (W : Valuation τ sig (Elt F)) : after ops W (Proc.devRef .tc main_arg4) = W (Proc.devRef .tc main_arg4) :=
  (split_after W _).trans (by rw [D_keep_arg4, C_keep_arg4, B_keep_arg4, A_keep_arg4])
theorem arg5_of (W : Valuation τ sig (Elt F)) : after ops W (Proc.devRef .tc main_arg5) = W (Proc.devRef .tc main_arg5) :=
  (split_after W _).trans (by rw [D_keep_arg5, C_keep_arg5, B_keep_arg5, A_keep_arg5])
theorem arg6_of (W : Valuation τ sig (Elt F)) : after ops W (Proc.devRef .tc main_arg6) = W (Proc.devRef .tc main_arg6) :=
  (split_after W _).trans (by rw [D_keep_arg6, C_keep_arg6, B_keep_arg6, A_keep_arg6])
theorem arg7_of (W : Valuation τ sig (Elt F)) : after ops W (Proc.devRef .tc main_arg7) = W (Proc.devRef .tc main_arg7) :=
  (split_after W _).trans (by rw [D_keep_arg7, C_keep_arg7, B_keep_arg7, A_keep_arg7])

/-- On every device, for any float values, from any memory with zero counters: every weakly fair execution of the reference
    terminates with the result buffer at the last stage of the launch arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = val_main_v85 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v85).trans (result_of (launchContents m c)),
      (h c main_arg0).trans (arg0_of (launchContents m c)),
      (h c main_arg1).trans (arg1_of (launchContents m c)),
      (h c main_arg2).trans (arg2_of (launchContents m c)),
      (h c main_arg3).trans (arg3_of (launchContents m c)),
      (h c main_arg4).trans (arg4_of (launchContents m c)),
      (h c main_arg5).trans (arg5_of (launchContents m c)),
      (h c main_arg6).trans (arg6_of (launchContents m c)),
      (h c main_arg7).trans (arg7_of (launchContents m c))⟩)
    (run_seq scopedRefs_eq scopedSems_eq defs main (fun _ => ops) main_eq (fun _ => ops_sub) m ρ)

end Cert.ReferenceIdeal.Staged

end
-- ==== Proof.KernelRun.lean ====
/-
  The device program's run with its last buffer contents named.

  The program is twelve segments — stretches of host operations and six kernel regions — and its buffers' contents at
  each segment boundary are a fold from the launch memory (`Gen.W0 … Gen.W12`). Every weakly fair execution from a
  memory with zero counters terminates, and the final memory holds, at every buffer that outlives the regions, the last
  boundary's contents `Gen.W12`: so any property of final memories that follows from those contents holds of every
  execution. The frame claim is the instance "the argument arrays are as launched"; the value claim reads the result
  buffer too.
-/
import proofs.«169351_j80333068304388_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a memory that holds the last boundary's contents at every
    buffer outside the regions' scopes; `Q` is any property of final memories that those contents imply. -/
theorem run_at {Q : PUnit × MemSt nD τ sig (Elt F) → Prop}
    (hQ : ∀ s : MemSt nD τ sig (Elt F),
      (∀ c : Dev nD, ∀ b ∈ Pipeline.ucRefs τ sig, s.mem (((c : Thread nD τ)).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- The result buffer and the argument arrays after the run: the result at the last region's output array as its write-backs
    leave it, each argument as launched. -/
theorem run_result : θ_run defs (onTc (τ := τ) (main (F := F))) ⟨m, fun _ => 0, ρ⟩ (fun r => ∀ c : Dev nD,
      r.2.mem ((c.tc : Thread nD τ).loc main_v79) = (dat5 (V11 m ρ) c).arrAt 2 cfg5.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_at m ρ fun s h c =>
    ⟨(h c _ (mem_uc main_v79 (by decide))).trans (W12_arr m ρ c 2),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c)⟩

end Cert.KernelIdeal.Named

end
-- ==== Proof.Entries.lean ====
/-
  The three dense steps of a graph-convolution layer, entry by entry, over the extended reals.

  * `matProd x w`: the product of an `[M, K]` matrix with a `[K, N]` matrix; entry `(r, c)` is `Σ_k x (r, k) · w (k, c)`.
  * `biasRelu a b`: the row `b : [1, N]` added to every row of `a : [M, N]`, then the maximum with the zero word's value.
  * `biasLogSoftmax a b`: the row added; then, row by row, the row's maximum (taken from minus infinity) subtracted,
    and the logarithm of the row's sum of exponentials subtracted: the logarithm of the row's softmax.

  Each depends, at row `r`, on row `r` of its matrix operand only: `rowOf` reads a row, and the three `…_row` functions
  are the steps as functions of one row. A block of rows of the result is therefore the step applied to that block of rows.
-/
import Idealize.ShloMosaic.PureOps.Ideal
import Idealize.ShloMosaic.PureOps.Ideal.Laws
import Idealize.ShloMosaic.Lib.ValueIdx

noncomputable section

namespace Cert.Entries

open Idealize.ShloMosaic Idealize.ShloMosaic.ValueIdx

/-- An `[m, n]` array of extended reals. -/
abbrev Mat (m n : ℕ) : Type := (⟨2, ![m, n]⟩ : Shape).Idx → EReal

/-- Entry `c` of a row times a `[K, N]` matrix. -/
def prodRow {K N : ℕ} (xr : Fin K → EReal) (w : Mat K N) (c : Fin N) : EReal :=
  ∑ k : Fin K, xr k * w (ix2 k c)

/-- Entry `c` of a row plus the bias row, cut off below at the zero word's value. -/
def reluRow {N : ℕ} (ar : Fin N → EReal) (b : Mat 1 N) (c : Fin N) : EReal :=
  max (ar c + b (ix2 0 c)) (Ideal.ofBits .f32 0x00000000#32)

/-- The row plus the bias row. -/
def shifted {N : ℕ} (ar : Fin N → EReal) (b : Mat 1 N) (j : Fin N) : EReal := ar j + b (ix2 0 j)

/-- The largest entry of the row plus the bias row, from minus infinity. -/
def rowTop {N : ℕ} (ar : Fin N → EReal) (b : Mat 1 N) : EReal :=
  max (Ideal.ofBits .f32 0xFF800000#32)
    ((Finset.univ : Finset (Fin N)).fold max (Ideal.ofBits .f32 0xFF800000#32) (shifted ar b))

/-- Entry `c` of the logarithm of the softmax of the row plus the bias row. -/
def logSoftmaxRow {N : ℕ} (ar : Fin N → EReal) (b : Mat 1 N) (c : Fin N) : EReal :=
  (shifted ar b c - rowTop ar b) - Ideal.log (∑ j : Fin N, Ideal.exp (shifted ar b j - rowTop ar b))

/-- Row `r` of a matrix. -/
def rowOf {M N : ℕ} (a : Mat M N) (r : Fin M) : Fin N → EReal := fun k => a (ix2 r k)

def matProd {M K N : ℕ} (x : Mat M K) (w : Mat K N) : Mat M N := fun i => prodRow (rowOf x (i 0)) w (i 1)

def biasRelu {M N : ℕ} (a : Mat M N) (b : Mat 1 N) : Mat M N := fun i => reluRow (rowOf a (i 0)) b (i 1)

def biasLogSoftmax {M N : ℕ} (a : Mat M N) (b : Mat 1 N) : Mat M N := fun i => logSoftmaxRow (rowOf a (i 0)) b (i 1)

end Cert.Entries

end
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.Dense0.lean ====
/-
  The first layer's linear map on the device: `x · W1`, ten blocks of 10000 rows.

  The region's grid has ten points; point `t` stages rows `10000·t … 10000·t + 9999` of the left matrix and the whole right
  matrix, and writes back the product of the two as rows `10000·t … 10000·t + 9999` of the result. The body narrows both
  operands to bf16 before the product; on the extended reals a change of format is the identity, so entry `(p, q)` of the block
  is `Σ_k x (10000·t + p, k) · w (k, q)`: the block is the corresponding block of rows of the whole product, and the ten blocks
  fill the result array.
-/
import proofs.«169351_j80333068304388_1_alg».proof.Proof.Gen.KernelIdeal.Frame
import proofs.«169351_j80333068304388_1_alg».proof.Proof.Entries
import proofs.«169351_j80333068304388_1_alg».proof.Proof.LibPlainMatmul
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense0

open Cert.KernelIdeal Cert.KernelIdeal.Gen Cert.Entries

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `(p, q)` of the body's result: row `p` of the staged rows times column `q` of the staged right matrix. -/
theorem pay_apply (x0 : Vec Ideal S10000x128 .f32) (x1 : Vec Ideal S128x16 .f32) (p : Fin 10000) (q : Fin 16) :
    k0_pay1 x0 x1 (ix2 p q) = prodRow (fun k : Fin 128 => x0 (ix2 p k)) x1 q := by
  unfold k0_pay1
  exact Cert.LibPlainMatmul.matmul_zero_apply dot_S10000x128_S128x16_S10000x16_1_0_0_1_n_n rfl rfl rfl rfl rfl rfl none
    _ _ p q

/-- If the staged rows are rows `10000·T …` of `X` and the staged right matrix is `W`, entry `y` of the body's result is entry
    `(10000·T + y₀, y₁)` of the product `X · W`. -/
theorem pay_eq_entry (X : Mat 100000 128) (W : Mat 128 16) (x0 : Vec Ideal S10000x128 .f32) (x1 : Vec Ideal S128x16 .f32) (T : ℕ)
    (hx : ∀ (y : S10000x128.Idx) (i : S100000x128.Idx), (i 0).val = 10000 * T + (y 0).val → (i 1).val = (y 1).val → x0 y = X i)
    (hw : ∀ y : S128x16.Idx, x1 y = W y)
    (y : S10000x16.Idx) (i : S100000x16.Idx) (h0 : (i 0).val = 10000 * T + (y 0).val) (h1 : (i 1).val = (y 1).val) :
    k0_pay1 x0 x1 y = matProd X W i := by
  obtain ⟨p, q, rfl⟩ : ∃ (p : Fin 10000) (q : Fin 16), y = ix2 p q := ⟨y 0, y 1, eq_ix2 y⟩
  obtain ⟨r, s, rfl⟩ : ∃ (r : Fin 100000) (s : Fin 16), i = ix2 r s := ⟨i 0, i 1, eq_ix2 i⟩
  have hs : s = q := Fin.ext h1
  subst hs
  rw [pay_apply]
  show ∑ k : Fin 128, x0 (ix2 p k) * x1 (ix2 k s) = ∑ k : Fin 128, X (ix2 r k) * W (ix2 k s)
  refine Finset.sum_congr rfl fun k _ => ?_
  rw [hx (ix2 p k) (ix2 r k) h0 rfl, hw]

/-- The printed index maps over the grid: the left matrix's and the result's block row is the point, every other block index zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the left matrix's block at point `t` is entry `(10000·t + y₀, y₁)` of the left matrix. -/
theorem xblk_apply (c : Dev nD) (t : Fin cfg0.N) (y : S10000x128.Idx) (i : S100000x128.Idx)
    (h0 : (i 0).val = 10000 * t.val + (y 0).val) (h1 : (i 1).val = (y 1).val) :
    (iblk0 V c 0 t : Vec Ideal S10000x128 .f32) y = (V c main_arg0 : S100000x128.Idx → EReal) i := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, h0]; omega
  | ⟨1, _⟩ => show win0_0.index t 1 * 128 + 1 * (y 1).val = (i 1).val; rw [e1, h1]; omega

/-- The right matrix's block at every point is the right matrix. -/
theorem wblk_apply (c : Dev nD) (t : Fin cfg0.N) (y : S128x16.Idx) :
    (iblk0 V c 1 t : Vec Ideal S128x16 .f32) y = (V c main_arg2 : S128x16.Idx → EReal) y := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t 0 * 128 + 1 * (y 0).val = (y 0).val; rw [e2]; omega
  | ⟨1, _⟩ => show win0_1.index t 1 * 16 + 1 * (y 1).val = (y 1).val; rw [e3]; omega

/-- What point `t` writes back is block `t` of the product of the two arrays as the region finds them. -/
theorem flushed_eq (c : Dev nD) (t : Fin cfg0.N) :
    (dat0 V c).flushed 2 t
      = ((cfg0.win 2).blk t).view.read (Elt Ideal) (matProd (V c main_arg0) (V c main_arg2) : S100000x16.Idx → EReal) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  obtain ⟨-, -, -, -, e4, e5⟩ := idx_facts t
  funext j
  rw [View.read_apply]
  refine pay_eq_entry (V c main_arg0) (V c main_arg2) (iblk0 V c 0 t) (iblk0 V c 1 t) t.val
    (fun y i h0 h1 => xblk_apply V c t y i h0 h1) (fun y => wblk_apply V c t y) j (((cfg0.win 2).blk t).view.emb j) ?_ ?_
  · show win0_2.index t 0 * 10000 + 1 * (j 0).val = 10000 * t.val + (j 0).val; rw [e4]; omega
  · show win0_2.index t 1 * 16 + 1 * (j 1).val = (j 1).val; rw [e5]; omega

/-- An index of the result array is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole (Pipeline.arrRef spec0 2)).slice (win0_2.rect t)).set ↔ _
  rw [View.set_slice_whole, Rect.mem_set_unit]
  exact Iff.rfl

/-- Row `r` of the result lies in the block of point `r / 10000`: the ten blocks fill the array. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  refine ⟨⟨(i 0).val / 10000, by rw [hN]; omega⟩, flush0_2 _, ?_⟩
  rw [mem_blk]
  obtain ⟨-, -, -, -, e4, e5⟩ := idx_facts ⟨(i 0).val / 10000, by rw [hN]; omega⟩
  intro a
  match a with
  | ⟨0, _⟩ =>
    show win0_2.index _ 0 * 10000 ≤ (i 0).val ∧ (i 0).val < win0_2.index _ 0 * 10000 + 10000
    rw [e4]; show (i 0).val / 10000 * 10000 ≤ (i 0).val ∧ (i 0).val < (i 0).val / 10000 * 10000 + 10000; omega
  | ⟨1, _⟩ =>
    show win0_2.index _ 1 * 16 ≤ (i 1).val ∧ (i 1).val < win0_2.index _ 1 * 16 + 16
    rw [e5]; omega

/-- The result array after the region: the product of the two arrays as the region finds them. -/
theorem final (c : Dev nD) :
    (dat0 V c).arrAt 2 cfg0.N = (matProd (V c main_arg0) (V c main_arg2) : S100000x16.Idx → EReal) :=
  (dat0 V c).arrAt_eq_of_cover 2 _ (fun t _ => flushed_eq V c t) cover

end Cert.KernelIdeal.Dense0

end
-- ==== Proof.Relu1.lean ====
/-
  The first layer's bias and cut-off on the device, ten blocks of 10000 rows.

  The region's grid has ten points; point `t` stages rows `10000·t … 10000·t + 9999` of the aggregated features and the one-row
  bias, and writes back, as the same rows of the result, each entry plus the bias entry of its column, cut off below at zero.
  Entry `(p, q)` of the block depends on entry `(10000·t + p, q)` only, so the block is the corresponding block of rows of the
  whole array's bias-and-cut-off, and the ten blocks fill the result array.
-/
import proofs.«169351_j80333068304388_1_alg».proof.Proof.Gen.KernelIdeal.Frame
import proofs.«169351_j80333068304388_1_alg».proof.Proof.Entries
import proofs.«169351_j80333068304388_1_alg».proof.Proof.LibRows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Relu1

open Cert.KernelIdeal Cert.KernelIdeal.Gen Cert.Entries

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `(p, q)` of the body's result: the staged entry plus the bias of column `q`, cut off below at zero. -/
theorem pay_apply (x0 : Vec Ideal S10000x16 .f32) (x1 : Vec Ideal S1x16 .f32) (p : Fin 10000) (q : Fin 16) :
    k1_pay1 x0 x1 (ix2 p q) = reluRow (fun k : Fin 16 => x0 (ix2 p k)) x1 q := by
  unfold k1_pay1
  simp only [shapeCast_self]
  show max (x0 (ix2 p q) + broadcastTo S10000x16 x1 broadcasts_S1x16_S10000x16 (ix2 p q)) (Ideal.ofBits .f32 0x00000000#32) = _
  rw [Cert.Rows.bcast_row (by decide) x1 broadcasts_S1x16_S10000x16 p q]
  rfl

/-- If the staged rows are rows `10000·T …` of `A` and the staged bias row is `B`, entry `y` of the body's result is entry
    `(10000·T + y₀, y₁)` of `A` with the bias added and cut off at zero. -/
theorem pay_eq_entry (A : Mat 100000 16) (B : Mat 1 16) (x0 : Vec Ideal S10000x16 .f32) (x1 : Vec Ideal S1x16 .f32) (T : ℕ)
    (hx : ∀ (y : S10000x16.Idx) (i : S100000x16.Idx), (i 0).val = 10000 * T + (y 0).val → (i 1).val = (y 1).val → x0 y = A i)
    (hb : ∀ y : S1x16.Idx, x1 y = B y)
    (y : S10000x16.Idx) (i : S100000x16.Idx) (h0 : (i 0).val = 10000 * T + (y 0).val) (h1 : (i 1).val = (y 1).val) :
    k1_pay1 x0 x1 y = biasRelu A B i := by
  obtain ⟨p, q, rfl⟩ : ∃ (p : Fin 10000) (q : Fin 16), y = ix2 p q := ⟨y 0, y 1, eq_ix2 y⟩
  obtain ⟨r, s, rfl⟩ : ∃ (r : Fin 100000) (s : Fin 16), i = ix2 r s := ⟨i 0, i 1, eq_ix2 i⟩
  have hs : s = q := Fin.ext h1
  subst hs
  rw [pay_apply]
  show max (x0 (ix2 p s) + x1 (ix2 0 s)) _ = max (A (ix2 r s) + B (ix2 0 s)) _
  rw [hx (ix2 p s) (ix2 r s) h0 rfl, hb]

/-- The printed index maps over the grid: the features' and the result's block row is the point, every other block index zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Entry `y` of the features' block at point `t` is entry `(10000·t + y₀, y₁)` of the features. -/
theorem xblk_apply (c : Dev nD) (t : Fin cfg1.N) (y : S10000x16.Idx) (i : S100000x16.Idx)
    (h0 : (i 0).val = 10000 * t.val + (y 0).val) (h1 : (i 1).val = (y 1).val) :
    (iblk1 V c 0 t : Vec Ideal S10000x16 .f32) y = (V c main_v45 : S100000x16.Idx → EReal) i := by
  obtain ⟨e0, e1, -⟩ := idx_facts t
  unfold iblk1
  rw [View.read_apply]
  show V c main_v45 _ = V c main_v45 _
  congr 1
  funext a
  apply Fin.ext
  match a with
  | ⟨0, _⟩ => show win1_0.index t 0 * 10000 + 1 * (y 0).val = (i 0).val; rw [e0, h0]; omega
  | ⟨1, _⟩ => show win1_0.index t 1 * 16 + 1 * (y 1).val = (i 1).val; rw [e1, h1]; omega

/-- The bias row's block at every point is the bias row. -/
theorem bblk_apply (c : Dev nD) (t : Fin cfg1.N) (y : S1x16.Idx) :
    (iblk1 V c 1 t : Vec Ideal S1x16 .f32) y = (V c main_v46 : S1x16.Idx → EReal) y := by
  obtain ⟨-, -, e2, e3, -⟩ := idx_facts t
  unfold iblk1
  rw [View.read_apply]
  show V c main_v46 _ = V c main_v46 _
  congr 1
  funext a
  apply Fin.ext
  match a with
  | ⟨0, _⟩ => show win1_1.index t 0 * 1 + 1 * (y 0).val = (y 0).val; rw [e2]; omega
  | ⟨1, _⟩ => show win1_1.index t 1 * 16 + 1 * (y 1).val = (y 1).val; rw [e3]; omega

/-- What point `t` writes back is block `t` of the bias-and-cut-off of the two arrays as the region finds them. -/
theorem flushed_eq (c : Dev nD) (t : Fin cfg1.N) :
    (dat1 V c).flushed 2 t
      = ((cfg1.win 2).blk t).view.read (Elt Ideal) (biasRelu (V c main_v45) (V c main_v46) : S100000x16.Idx → EReal) := by
  show (cfg1.win 2).cut (grid1.coords t) ((dat1 V c).after 2 t) = _
  rw [after1_2]
  unfold out1_2
  rw [View.canon_unit_zero hz]
  simp only [View.ld_unit_zero (S := S10000x16) hz, View.ld_unit_zero (S := S1x16) hz]
  obtain ⟨-, -, -, -, e4, e5⟩ := idx_facts t
  funext j
  rw [View.read_apply]
  refine pay_eq_entry (V c main_v45) (V c main_v46) (iblk1 V c 0 t) (iblk1 V c 1 t) t.val
    (fun y i h0 h1 => xblk_apply V c t y i h0 h1) (fun y => bblk_apply V c t y) j (((cfg1.win 2).blk t).view.emb j) ?_ ?_
  · show win1_2.index t 0 * 10000 + 1 * (j 0).val = 10000 * t.val + (j 0).val; rw [e4]; omega
  · show win1_2.index t 1 * 16 + 1 * (j 1).val = (j 1).val; rw [e5]; omega

/-- An index of the result array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val ∧ (i a).val < win1_2.index t a * S10000x16.size a + S10000x16.size a := by
  show i ∈ ((View.whole (Pipeline.arrRef spec1 2)).slice (win1_2.rect t)).set ↔ _
  rw [View.set_slice_whole, Rect.mem_set_unit]
  exact Iff.rfl

/-- Row `r` of the result lies in the block of point `r / 10000`: the ten blocks fill the array. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  refine ⟨⟨(i 0).val / 10000, by rw [hN]; omega⟩, flush1_2 _, ?_⟩
  rw [mem_blk]
  obtain ⟨-, -, -, -, e4, e5⟩ := idx_facts ⟨(i 0).val / 10000, by rw [hN]; omega⟩
  intro a
  match a with
  | ⟨0, _⟩ =>
    show win1_2.index _ 0 * 10000 ≤ (i 0).val ∧ (i 0).val < win1_2.index _ 0 * 10000 + 10000
    rw [e4]; show (i 0).val / 10000 * 10000 ≤ (i 0).val ∧ (i 0).val < (i 0).val / 10000 * 10000 + 10000; omega
  | ⟨1, _⟩ =>
    show win1_2.index _ 1 * 16 ≤ (i 1).val ∧ (i 1).val < win1_2.index _ 1 * 16 + 16
    rw [e5]; omega

/-- The result array after the region: the bias-and-cut-off of the two arrays as the region finds them. -/
theorem final (c : Dev nD) :
    (dat1 V c).arrAt 2 cfg1.N = (biasRelu (V c main_v45) (V c main_v46) : S100000x16.Idx → EReal) :=
  (dat1 V c).arrAt_eq_of_cover 2 _ (fun t _ => flushed_eq V c t) cover

end Cert.KernelIdeal.Relu1

end
-- ==== Proof.Dense2.lean ====
/-
  The second layer's linear map on the device: `h₁ · W2`, ten blocks of 10000 rows.

  The region's grid has ten points; point `t` stages rows `10000·t … 10000·t + 9999` of the left matrix and the whole right
  matrix, and writes back the product of the two as rows `10000·t … 10000·t + 9999` of the result. The body narrows both
  operands to bf16 before the product; on the extended reals a change of format is the identity, so entry `(p, q)` of the block
  is `Σ_k x (10000·t + p, k) · w (k, q)`: the block is the corresponding block of rows of the whole product, and the ten blocks
  fill the result array.
-/
import proofs.«169351_j80333068304388_1_alg».proof.Proof.Gen.KernelIdeal.Frame
import proofs.«169351_j80333068304388_1_alg».proof.Proof.Entries
import proofs.«169351_j80333068304388_1_alg».proof.Proof.LibPlainMatmul
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.Entries

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `(p, q)` of the body's result: row `p` of the staged rows times column `q` of the staged right matrix. -/
theorem pay_apply (x0 : Vec Ideal S10000x16 .f32) (x1 : Vec Ideal S16x16 .f32) (p : Fin 10000) (q : Fin 16) :
    k2_pay1 x0 x1 (ix2 p q) = prodRow (fun k : Fin 16 => x0 (ix2 p k)) x1 q := by
  unfold k2_pay1
  simp only [shapeCast_self]
  exact Cert.LibPlainMatmul.matmul_zero_apply dot_S10000x16_S16x16_S10000x16_1_0_0_1_n_n rfl rfl rfl rfl rfl rfl none
    _ _ p q

/-- If the staged rows are rows `10000·T …` of `X` and the staged right matrix is `W`, entry `y` of the body's result is entry
    `(10000·T + y₀, y₁)` of the product `X · W`. -/
theorem pay_eq_entry (X : Mat 100000 16) (W : Mat 16 16) (x0 : Vec Ideal S10000x16 .f32) (x1 : Vec Ideal S16x16 .f32) (T : ℕ)
    (hx : ∀ (y : S10000x16.Idx) (i : S100000x16.Idx), (i 0).val = 10000 * T + (y 0).val → (i 1).val = (y 1).val → x0 y = X i)
    (hw : ∀ y : S16x16.Idx, x1 y = W y)
    (y : S10000x16.Idx) (i : S100000x16.Idx) (h0 : (i 0).val = 10000 * T + (y 0).val) (h1 : (i 1).val = (y 1).val) :
    k2_pay1 x0 x1 y = matProd X W i := by
  obtain ⟨p, q, rfl⟩ : ∃ (p : Fin 10000) (q : Fin 16), y = ix2 p q := ⟨y 0, y 1, eq_ix2 y⟩
  obtain ⟨r, s, rfl⟩ : ∃ (r : Fin 100000) (s : Fin 16), i = ix2 r s := ⟨i 0, i 1, eq_ix2 i⟩
  have hs : s = q := Fin.ext h1
  subst hs
  rw [pay_apply]
  show ∑ k : Fin 16, x0 (ix2 p k) * x1 (ix2 k s) = ∑ k : Fin 16, X (ix2 r k) * W (ix2 k s)
  refine Finset.sum_congr rfl fun k _ => ?_
  rw [hx (ix2 p k) (ix2 r k) h0 rfl, hw]

/-- The printed index maps over the grid: the left matrix's and the result's block row is the point, every other block index zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry `y` of the left matrix's block at point `t` is entry `(10000·t + y₀, y₁)` of the left matrix. -/
theorem xblk_apply (c : Dev nD) (t : Fin cfg2.N) (y : S10000x16.Idx) (i : S100000x16.Idx)
    (h0 : (i 0).val = 10000 * t.val + (y 0).val) (h1 : (i 1).val = (y 1).val) :
    (iblk2 V c 0 t : Vec Ideal S10000x16 .f32) y = (V c main_v47 : S100000x16.Idx → EReal) i := by
  obtain ⟨e0, e1, -⟩ := idx_facts t
  unfold iblk2
  rw [View.read_apply]
  show V c main_v47 _ = V c main_v47 _
  congr 1
  funext a
  apply Fin.ext
  match a with
  | ⟨0, _⟩ => show win2_0.index t 0 * 10000 + 1 * (y 0).val = (i 0).val; rw [e0, h0]; omega
  | ⟨1, _⟩ => show win2_0.index t 1 * 16 + 1 * (y 1).val = (i 1).val; rw [e1, h1]; omega

/-- The right matrix's block at every point is the right matrix. -/
theorem wblk_apply (c : Dev nD) (t : Fin cfg2.N) (y : S16x16.Idx) :
    (iblk2 V c 1 t : Vec Ideal S16x16 .f32) y = (V c main_arg4 : S16x16.Idx → EReal) y := by
  obtain ⟨-, -, e2, e3, -⟩ := idx_facts t
  unfold iblk2
  rw [View.read_apply]
  show V c main_arg4 _ = V c main_arg4 _
  congr 1
  funext a
  apply Fin.ext
  match a with
  | ⟨0, _⟩ => show win2_1.index t 0 * 16 + 1 * (y 0).val = (y 0).val; rw [e2]; omega
  | ⟨1, _⟩ => show win2_1.index t 1 * 16 + 1 * (y 1).val = (y 1).val; rw [e3]; omega

/-- What point `t` writes back is block `t` of the product of the two arrays as the region finds them. -/
theorem flushed_eq (c : Dev nD) (t : Fin cfg2.N) :
    (dat2 V c).flushed 2 t
      = ((cfg2.win 2).blk t).view.read (Elt Ideal) (matProd (V c main_v47) (V c main_arg4) : S100000x16.Idx → EReal) := by
  show (cfg2.win 2).cut (grid2.coords t) ((dat2 V c).after 2 t) = _
  rw [after2_2]
  unfold out2_2
  rw [View.canon_unit_zero hz]
  simp only [View.ld_unit_zero (S := S10000x16) hz, View.ld_unit_zero (S := S16x16) hz]
  obtain ⟨-, -, -, -, e4, e5⟩ := idx_facts t
  funext j
  rw [View.read_apply]
  refine pay_eq_entry (V c main_v47) (V c main_arg4) (iblk2 V c 0 t) (iblk2 V c 1 t) t.val
    (fun y i h0 h1 => xblk_apply V c t y i h0 h1) (fun y => wblk_apply V c t y) j (((cfg2.win 2).blk t).view.emb j) ?_ ?_
  · show win2_2.index t 0 * 10000 + 1 * (j 0).val = 10000 * t.val + (j 0).val; rw [e4]; omega
  · show win2_2.index t 1 * 16 + 1 * (j 1).val = (j 1).val; rw [e5]; omega

/-- An index of the result array is in point `t`'s block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole (Pipeline.arrRef spec2 2)).slice (win2_2.rect t)).set ↔ _
  rw [View.set_slice_whole, Rect.mem_set_unit]
  exact Iff.rfl

/-- Row `r` of the result lies in the block of point `r / 10000`: the ten blocks fill the array. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 10 := N_2
  refine ⟨⟨(i 0).val / 10000, by rw [hN]; omega⟩, flush2_2 _, ?_⟩
  rw [mem_blk]
  obtain ⟨-, -, -, -, e4, e5⟩ := idx_facts ⟨(i 0).val / 10000, by rw [hN]; omega⟩
  intro a
  match a with
  | ⟨0, _⟩ =>
    show win2_2.index _ 0 * 10000 ≤ (i 0).val ∧ (i 0).val < win2_2.index _ 0 * 10000 + 10000
    rw [e4]; show (i 0).val / 10000 * 10000 ≤ (i 0).val ∧ (i 0).val < (i 0).val / 10000 * 10000 + 10000; omega
  | ⟨1, _⟩ =>
    show win2_2.index _ 1 * 16 ≤ (i 1).val ∧ (i 1).val < win2_2.index _ 1 * 16 + 16
    rw [e5]; omega

/-- The result array after the region: the product of the two arrays as the region finds them. -/
theorem final (c : Dev nD) :
    (dat2 V c).arrAt 2 cfg2.N = (matProd (V c main_v47) (V c main_arg4) : S100000x16.Idx → EReal) :=
  (dat2 V c).arrAt_eq_of_cover 2 _ (fun t _ => flushed_eq V c t) cover

end Cert.KernelIdeal.Dense2

end
-- ==== Proof.Relu3.lean ====
/-
  The second layer's bias and cut-off on the device, ten blocks of 10000 rows.

  The region's grid has ten points; point `t` stages rows `10000·t … 10000·t + 9999` of the aggregated features and the one-row
  bias, and writes back, as the same rows of the result, each entry plus the bias entry of its column, cut off below at zero.
  Entry `(p, q)` of the block depends on entry `(10000·t + p, q)` only, so the block is the corresponding block of rows of the
  whole array's bias-and-cut-off, and the ten blocks fill the result array.
-/
import proofs.«169351_j80333068304388_1_alg».proof.Proof.Gen.KernelIdeal.Frame
import proofs.«169351_j80333068304388_1_alg».proof.Proof.Entries
import proofs.«169351_j80333068304388_1_alg».proof.Proof.LibRows
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Relu3

open Cert.KernelIdeal Cert.KernelIdeal.Gen Cert.Entries

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `(p, q)` of the body's result: the staged entry plus the bias of column `q`, cut off below at zero. -/
theorem pay_apply (x0 : Vec Ideal S10000x16 .f32) (x1 : Vec Ideal S1x16 .f32) (p : Fin 10000) (q : Fin 16) :
    k3_pay1 x0 x1 (ix2 p q) = reluRow (fun k : Fin 16 => x0 (ix2 p k)) x1 q := by
  unfold k3_pay1
  simp only [shapeCast_self]
  show max (x0 (ix2 p q) + broadcastTo S10000x16 x1 broadcasts_S1x16_S10000x16 (ix2 p q)) (Ideal.ofBits .f32 0x00000000#32) = _
  rw [Cert.Rows.bcast_row (by decide) x1 broadcasts_S1x16_S10000x16 p q]
  rfl

/-- If the staged rows are rows `10000·T …` of `A` and the staged bias row is `B`, entry `y` of the body's result is entry
    `(10000·T + y₀, y₁)` of `A` with the bias added and cut off at zero. -/
theorem pay_eq_entry (A : Mat 100000 16) (B : Mat 1 16) (x0 : Vec Ideal S10000x16 .f32) (x1 : Vec Ideal S1x16 .f32) (T : ℕ)
    (hx : ∀ (y : S10000x16.Idx) (i : S100000x16.Idx), (i 0).val = 10000 * T + (y 0).val → (i 1).val = (y 1).val → x0 y = A i)
    (hb : ∀ y : S1x16.Idx, x1 y = B y)
    (y : S10000x16.Idx) (i : S100000x16.Idx) (h0 : (i 0).val = 10000 * T + (y 0).val) (h1 : (i 1).val = (y 1).val) :
    k3_pay1 x0 x1 y = biasRelu A B i := by
  obtain ⟨p, q, rfl⟩ : ∃ (p : Fin 10000) (q : Fin 16), y = ix2 p q := ⟨y 0, y 1, eq_ix2 y⟩
  obtain ⟨r, s, rfl⟩ : ∃ (r : Fin 100000) (s : Fin 16), i = ix2 r s := ⟨i 0, i 1, eq_ix2 i⟩
  have hs : s = q := Fin.ext h1
  subst hs
  rw [pay_apply]
  show max (x0 (ix2 p s) + x1 (ix2 0 s)) _ = max (A (ix2 r s) + B (ix2 0 s)) _
  rw [hx (ix2 p s) (ix2 r s) h0 rfl, hb]

/-- The printed index maps over the grid: the features' and the result's block row is the point, every other block index zero. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Entry `y` of the features' block at point `t` is entry `(10000·t + y₀, y₁)` of the features. -/
theorem xblk_apply (c : Dev nD) (t : Fin cfg3.N) (y : S10000x16.Idx) (i : S100000x16.Idx)
    (h0 : (i 0).val = 10000 * t.val + (y 0).val) (h1 : (i 1).val = (y 1).val) :
    (iblk3 V c 0 t : Vec Ideal S10000x16 .f32) y = (V c main_v61 : S100000x16.Idx → EReal) i := by
  obtain ⟨e0, e1, -⟩ := idx_facts t
  unfold iblk3
  rw [View.read_apply]
  show V c main_v61 _ = V c main_v61 _
  congr 1
  funext a
  apply Fin.ext
  match a with
  | ⟨0, _⟩ => show win3_0.index t 0 * 10000 + 1 * (y 0).val = (i 0).val; rw [e0, h0]; omega
  | ⟨1, _⟩ => show win3_0.index t 1 * 16 + 1 * (y 1).val = (i 1).val; rw [e1, h1]; omega

/-- The bias row's block at every point is the bias row. -/
theorem bblk_apply (c : Dev nD) (t : Fin cfg3.N) (y : S1x16.Idx) :
    (iblk3 V c 1 t : Vec Ideal S1x16 .f32) y = (V c main_v62 : S1x16.Idx → EReal) y := by
  obtain ⟨-, -, e2, e3, -⟩ := idx_facts t
  unfold iblk3
  rw [View.read_apply]
  show V c main_v62 _ = V c main_v62 _
  congr 1
  funext a
  apply Fin.ext
  match a with
  | ⟨0, _⟩ => show win3_1.index t 0 * 1 + 1 * (y 0).val = (y 0).val; rw [e2]; omega
  | ⟨1, _⟩ => show win3_1.index t 1 * 16 + 1 * (y 1).val = (y 1).val; rw [e3]; omega

/-- What point `t` writes back is block `t` of the bias-and-cut-off of the two arrays as the region finds them. -/
theorem flushed_eq (c : Dev nD) (t : Fin cfg3.N) :
    (dat3 V c).flushed 2 t
      = ((cfg3.win 2).blk t).view.read (Elt Ideal) (biasRelu (V c main_v61) (V c main_v62) : S100000x16.Idx → EReal) := by
  show (cfg3.win 2).cut (grid3.coords t) ((dat3 V c).after 2 t) = _
  rw [after3_2]
  unfold out3_2
  rw [View.canon_unit_zero hz]
  simp only [View.ld_unit_zero (S := S10000x16) hz, View.ld_unit_zero (S := S1x16) hz]
  obtain ⟨-, -, -, -, e4, e5⟩ := idx_facts t
  funext j
  rw [View.read_apply]
  refine pay_eq_entry (V c main_v61) (V c main_v62) (iblk3 V c 0 t) (iblk3 V c 1 t) t.val
    (fun y i h0 h1 => xblk_apply V c t y i h0 h1) (fun y => bblk_apply V c t y) j (((cfg3.win 2).blk t).view.emb j) ?_ ?_
  · show win3_2.index t 0 * 10000 + 1 * (j 0).val = 10000 * t.val + (j 0).val; rw [e4]; omega
  · show win3_2.index t 1 * 16 + 1 * (j 1).val = (j 1).val; rw [e5]; omega

/-- An index of the result array is in point `t`'s block iff each coordinate is in the block's range on its axis. -/
theorem mem_blk (t : Fin cfg3.N) (i : S100000x16.Idx) :
    i ∈ ((cfg3.win 2).blk t).view.set ↔ ∀ a : Fin 2, win3_2.index t a * S10000x16.size a ≤ (i a).val ∧ (i a).val < win3_2.index t a * S10000x16.size a + S10000x16.size a := by
  show i ∈ ((View.whole (Pipeline.arrRef spec3 2)).slice (win3_2.rect t)).set ↔ _
  rw [View.set_slice_whole, Rect.mem_set_unit]
  exact Iff.rfl

/-- Row `r` of the result lies in the block of point `r / 10000`: the ten blocks fill the array. -/
theorem cover (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  have hN : cfg3.N = 10 := N_3
  refine ⟨⟨(i 0).val / 10000, by rw [hN]; omega⟩, flush3_2 _, ?_⟩
  rw [mem_blk]
  obtain ⟨-, -, -, -, e4, e5⟩ := idx_facts ⟨(i 0).val / 10000, by rw [hN]; omega⟩
  intro a
  match a with
  | ⟨0, _⟩ =>
    show win3_2.index _ 0 * 10000 ≤ (i 0).val ∧ (i 0).val < win3_2.index _ 0 * 10000 + 10000
    rw [e4]; show (i 0).val / 10000 * 10000 ≤ (i 0).val ∧ (i 0).val < (i 0).val / 10000 * 10000 + 10000; omega
  | ⟨1, _⟩ =>
    show win3_2.index _ 1 * 16 ≤ (i 1).val ∧ (i 1).val < win3_2.index _ 1 * 16 + 16
    rw [e5]; omega

/-- The result array after the region: the bias-and-cut-off of the two arrays as the region finds them. -/
theorem final (c : Dev nD) :
    (dat3 V c).arrAt 2 cfg3.N = (biasRelu (V c main_v61) (V c main_v62) : S100000x16.Idx → EReal) :=
  (dat3 V c).arrAt_eq_of_cover 2 _ (fun t _ => flushed_eq V c t) cover

end Cert.KernelIdeal.Relu3

end
-- ==== Proof.Dense4.lean ====
/-
  The third layer's linear map on the device: `h₂ · W3`, ten blocks of 10000 rows.

  The region's grid has ten points; point `t` stages rows `10000·t … 10000·t + 9999` of the left matrix and the whole right
  matrix, and writes back the product of the two as rows `10000·t … 10000·t + 9999` of the result. The body narrows both
  operands to bf16 before the product; on the extended reals a change of format is the identity, so entry `(p, q)` of the block
  is `Σ_k x (10000·t + p, k) · w (k, q)`: the block is the corresponding block of rows of the whole product, and the ten blocks
  fill the result array.
-/
import proofs.«169351_j80333068304388_1_alg».proof.Proof.Gen.KernelIdeal.Frame
import proofs.«169351_j80333068304388_1_alg».proof.Proof.Entries
import proofs.«169351_j80333068304388_1_alg».proof.Proof.LibPlainMatmul
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense4

open Cert.KernelIdeal Cert.KernelIdeal.Gen Cert.Entries

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- Entry `(p, q)` of the body's result: row `p` of the staged rows times column `q` of the staged right matrix. -/
theorem pay_apply (x0 : Vec Ideal S10000x16 .f32) (x1 : Vec Ideal S16x2 .f32) (p : Fin 10000) (q : Fin 2) :
    k4_pay1 x0 x1 (ix2 p q) = prodRow (fun k : Fin 16 => x0 (ix2 p k)) x1 q := by
  unfold k4_pay1
  simp only [shapeCast_self]
  exact Cert.LibPlainMatmul.matmul_zero_apply dot_S10000x16_S16x2_S10000x2_1_0_0_1_n_n rfl rfl rfl rfl rfl rfl none
    _ _ p q

/-- If the staged rows are rows `10000·T …` of `X` and the staged right matrix is `W`, entry `y` of the body's result is entry
    `(10000·T + y₀, y₁)` of the product `X · W`. -/
theorem pay_eq_entry (X : Mat 100000 16) (W : Mat 16 2) (x0 : Vec Ideal S10000x16 .f32) (x1 : Vec Ideal S16x2 .f32) (T : ℕ)
    (hx : ∀ (y : S10000x16.Idx) (i : S100000x16.Idx), (i 0).val = 10000 * T + (y 0).val → (i 1).val = (y 1).val → x0 y = X i)
    (hw : ∀ y : S16x2.Idx, x1 y = W y)
    (y : S10000x2.Idx) (i : S100000x2.Idx) (h0 : (i 0).val = 10000 * T + (y 0).val) (h1 : (i 1).val = (y 1).val) :
    k4_pay1 x0 x1 y = matProd X W i := by
  obtain ⟨p, q, rfl⟩ : ∃ (p : Fin 10000) (q : Fin 2), y = ix2 p q := ⟨y 0, y 1, eq_ix2 y⟩
  obtain ⟨r, s, rfl⟩ : ∃ (r : Fin 100000) (s : Fin 2), i = ix2 r s := ⟨i 0, i 1, eq_ix2 i⟩
  have hs : s = q := Fin.ext h1
  subst hs
  rw [pay_apply]
  show ∑ k : Fin 16, x0 (ix2 p k) * x1 (ix2 k s) = ∑ k : Fin 16, X (ix2 r k) * W (ix2 k s)
  refine Finset.sum_congr rfl fun k _ => ?_
  rw [hx (ix2 p k) (ix2 r k) h0 rfl, hw]

/-- The printed index maps over the grid: the left matrix's and the result's block row is the point, every other block index zero. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry `y` of the left matrix's block at point `t` is entry `(10000·t + y₀, y₁)` of the left matrix. -/
theorem xblk_apply (c : Dev nD) (t : Fin cfg4.N) (y : S10000x16.Idx) (i : S100000x16.Idx)
    (h0 : (i 0).val = 10000 * t.val + (y 0).val) (h1 : (i 1).val = (y 1).val) :
    (iblk4 V c 0 t : Vec Ideal S10000x16 .f32) y = (V c main_v63 : S100000x16.Idx → EReal) i := by
  obtain ⟨e0, e1, -⟩ := idx_facts t
  unfold iblk4
  rw [View.read_apply]
  show V c main_v63 _ = V c main_v63 _
  congr 1
  funext a
  apply Fin.ext
  match a with
  | ⟨0, _⟩ => show win4_0.index t 0 * 10000 + 1 * (y 0).val = (i 0).val; rw [e0, h0]; omega
  | ⟨1, _⟩ => show win4_0.index t 1 * 16 + 1 * (y 1).val = (i 1).val; rw [e1, h1]; omega

/-- The right matrix's block at every point is the right matrix. -/
theorem wblk_apply (c : Dev nD) (t : Fin cfg4.N) (y : S16x2.Idx) :
    (iblk4 V c 1 t : Vec Ideal S16x2 .f32) y = (V c main_arg6 : S16x2.Idx → EReal) y := by
  obtain ⟨-, -, e2, e3, -⟩ := idx_facts t
  unfold iblk4
  rw [View.read_apply]
  show V c main_arg6 _ = V c main_arg6 _
  congr 1
  funext a
  apply Fin.ext
  match a with
  | ⟨0, _⟩ => show win4_1.index t 0 * 16 + 1 * (y 0).val = (y 0).val; rw [e2]; omega
  | ⟨1, _⟩ => show win4_1.index t 1 * 2 + 1 * (y 1).val = (y 1).val; rw [e3]; omega

/-- What point `t` writes back is block `t` of the product of the two arrays as the region finds them. -/
theorem flushed_eq (c : Dev nD) (t : Fin cfg4.N) :
    (dat4 V c).flushed 2 t
      = ((cfg4.win 2).blk t).view.read (Elt Ideal) (matProd (V c main_v63) (V c main_arg6) : S100000x2.Idx → EReal) := by
  show (cfg4.win 2).cut (grid4.coords t) ((dat4 V c).after 2 t) = _
  rw [after4_2]
  unfold out4_2
  rw [View.canon_unit_zero hz]
  simp only [View.ld_unit_zero (S := S10000x16) hz, View.ld_unit_zero (S := S16x2) hz]
  obtain ⟨-, -, -, -, e4, e5⟩ := idx_facts t
  funext j
  rw [View.read_apply]
  refine pay_eq_entry (V c main_v63) (V c main_arg6) (iblk4 V c 0 t) (iblk4 V c 1 t) t.val
    (fun y i h0 h1 => xblk_apply V c t y i h0 h1) (fun y => wblk_apply V c t y) j (((cfg4.win 2).blk t).view.emb j) ?_ ?_
  · show win4_2.index t 0 * 10000 + 1 * (j 0).val = 10000 * t.val + (j 0).val; rw [e4]; omega
  · show win4_2.index t 1 * 2 + 1 * (j 1).val = (j 1).val; rw [e5]; omega

/-- An index of the result array is in point `t`'s block iff each coordinate is in the block's range on its axis. -/
theorem mem_blk (t : Fin cfg4.N) (i : S100000x2.Idx) :
    i ∈ ((cfg4.win 2).blk t).view.set ↔ ∀ a : Fin 2, win4_2.index t a * S10000x2.size a ≤ (i a).val ∧ (i a).val < win4_2.index t a * S10000x2.size a + S10000x2.size a := by
  show i ∈ ((View.whole (Pipeline.arrRef spec4 2)).slice (win4_2.rect t)).set ↔ _
  rw [View.set_slice_whole, Rect.mem_set_unit]
  exact Iff.rfl

/-- Row `r` of the result lies in the block of point `r / 10000`: the ten blocks fill the array. -/
theorem cover (i : S100000x2.Idx) : ∃ t : Fin cfg4.N, (cfg4.win 2).flush t = true ∧ i ∈ ((cfg4.win 2).blk t).view.set := by
  have hi0 : (i 0).val < 100000 := (i 0).isLt
  have hi1 : (i 1).val < 2 := (i 1).isLt
  have hN : cfg4.N = 10 := N_4
  refine ⟨⟨(i 0).val / 10000, by rw [hN]; omega⟩, flush4_2 _, ?_⟩
  rw [mem_blk]
  obtain ⟨-, -, -, -, e4, e5⟩ := idx_facts ⟨(i 0).val / 10000, by rw [hN]; omega⟩
  intro a
  match a with
  | ⟨0, _⟩ =>
    show win4_2.index _ 0 * 10000 ≤ (i 0).val ∧ (i 0).val < win4_2.index _ 0 * 10000 + 10000
    rw [e4]; show (i 0).val / 10000 * 10000 ≤ (i 0).val ∧ (i 0).val < (i 0).val / 10000 * 10000 + 10000; omega
  | ⟨1, _⟩ =>
    show win4_2.index _ 1 * 2 ≤ (i 1).val ∧ (i 1).val < win4_2.index _ 1 * 2 + 2
    rw [e5]; omega

/-- The result array after the region: the product of the two arrays as the region finds them. -/
theorem final (c : Dev nD) :
    (dat4 V c).arrAt 2 cfg4.N = (matProd (V c main_v63) (V c main_arg6) : S100000x2.Idx → EReal) :=
  (dat4 V c).arrAt_eq_of_cover 2 _ (fun t _ => flushed_eq V c t) cover

end Cert.KernelIdeal.Dense4

end
-- ==== Proof.LibAxisZero.lean ====
/-
  Reading a reduction over the FIRST axis of a matrix, and a one-entry matrix broadcast to a full one, at
  explicit coordinates.

  A reduction of an `[m, n]` array over its first axis has, at column `c`, the source indices `(k, c)`, `k < m`
  (with `n = 1` this is the total of a column `[m, 1]`). A `[1, 1]` array broadcast to `[a, b]` reads its one
  entry everywhere.
-/
import Idealize.ShloMosaic.PureOps.Reduce
import Idealize.ShloMosaic.Lib.ValueIdx
import Idealize.ShloMosaic.Lib.Pipeline.Value

noncomputable section

open Idealize.ShloMosaic Idealize.ShloMosaic.ValueIdx

namespace Cert.LibAxisZero

/-- Column `c` of the reduced array with row `k` put back is the source index `(k, c)`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

variable {α : Type}

/-- A `[1, 1]` array broadcast to `[a, b]` reads, anywhere, its one entry. -/
theorem bcast_one {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) :=
  broadcastTo_apply v h (ix2 p c) (ix2 (0 : Fin 1) (0 : Fin 1)) (fun ax => match ax with
    | ⟨0, _⟩ => by show 0 = (if (1 : ℕ) = 1 then 0 else p.val); rw [if_pos rfl]
    | ⟨1, _⟩ => by show 0 = (if (1 : ℕ) = 1 then 0 else c.val); rw [if_pos rfl])

end Cert.LibAxisZero

end
-- ==== Proof.LibMatrixReduce.lean ====
/-
  One-axis reductions of a matrix and the "kept axis" layouts that follow them, at the exact extended reals
  and at explicit coordinates.

  The sum of an `[m, n]` matrix along its second axis is, at row `r`, `Σ_c v (r, c)`; along its first axis, at
  column `c`, `Σ_k v (k, c)`; the maximum along the first axis is the fold of `max` over the column from the
  accumulator's value. A vector `[m]` recast as a column `[m, 1]` and broadcast to `[m, n]` reads the vector at
  the row; a vector `[n]` recast as a row `[1, n]` and broadcast to `[m, n]` reads it at the column.
-/
import proofs.«169351_j80333068304388_1_alg».proof.Proof.LibRows
import proofs.«169351_j80333068304388_1_alg».proof.Proof.LibAxisZero
import Idealize.ShloMosaic.Lib.ValueLayout

noncomputable section

open Idealize.ShloMosaic Idealize.ShloMosaic.ValueIdx

namespace Cert.LibMatrixReduce

/-- The sum along the second axis, at row `r`. -/
theorem rowSum_apply {m n : ℕ} (v : FVec Ideal (⟨2, ![m, n]⟩ : Shape) .f32) (acc : BitVec 32)
    (h : (⟨2, ![m, n]⟩ : Shape).Reduces [1] (⟨1, ![m]⟩ : Shape)) (hφ : FKind.Formats .f32) (hacc : acc = FKind.add.neutral .f32 hφ)
    (r : Fin m) :
    multiReduction .add [1] (⟨1, ![m]⟩ : Shape) v acc h hφ hacc (ix1 r) = ∑ c : Fin n, v (ix2 r c) := by
  rw [Ideal.multiReduction_add_single]
  exact Finset.sum_congr rfl fun k _ => congrArg v (Cert.Rows.lift_row h r k)

/-- The sum along the first axis, at column `c`. -/
theorem colSum_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.add.neutral .f32 hφ)
    (c : Fin n) :
    multiReduction .add [0] (⟨1, ![n]⟩ : Shape) v acc h hφ hacc (ix1 c) = ∑ k : Fin m, v (ix2 k c) := by
  rw [Ideal.multiReduction_add_single]
  exact Finset.sum_congr rfl fun k _ => congrArg v (Cert.LibAxisZero.lift_col h c k)

/-- The maximum along the first axis, at column `c`: `max` folded over the column from the accumulator's value. -/
theorem colMax_apply {m n : ℕ} (v : FVec Ideal (⟨2, ![m, n]⟩ : Shape) .f32) (acc : BitVec 32)
    (h : (⟨2, ![m, n]⟩ : Shape).Reduces [0] (⟨1, ![n]⟩ : Shape)) (hφ : FKind.Formats .f32) (hacc : acc = FKind.maximumf.neutral .f32 hφ)
    (c : Fin n) :
    multiReduction .maximumf [0] (⟨1, ![n]⟩ : Shape) v acc h hφ hacc (ix1 c)
      = (Finset.univ : Finset (Fin m)).fold max (Ideal.ofBits .f32 acc) (fun k => v (ix2 k c)) := by
  rw [Ideal.multiReduction_maximumf_single]
  refine congrArg (fun f => (Finset.univ : Finset (Fin m)).fold max (Ideal.ofBits .f32 acc) f) (funext fun k => ?_)
  exact congrArg v (Cert.LibAxisZero.lift_col h c k)

variable {α : Type}

/-- A vector kept as a column and broadcast along the rows' entries reads the vector at the row. -/
theorem keptCol_apply {m n : ℕ} (hm : m ≠ 1) (u : (⟨1, ![m]⟩ : Shape).Idx → α)
    (h1 : (⟨1, ![m]⟩ : Shape).ShapeCasts ⟨2, ![m, 1]⟩) (h2 : (⟨2, ![m, 1]⟩ : Shape).Broadcasts ⟨2, ![m, n]⟩) (r : Fin m) (c : Fin n) :
    broadcastTo ⟨2, ![m, n]⟩ (shapeCast ⟨2, ![m, 1]⟩ u h1) h2 (ix2 r c) = u (ix1 r) := by
  rw [Cert.Rows.bcast_col hm, Cert.Rows.cast_col]

/-- A vector kept as a row and broadcast down the rows reads the vector at the column. -/
theorem keptRow_apply {m n : ℕ} (u : (⟨1, ![n]⟩ : Shape).Idx → α)
    (h1 : (⟨1, ![n]⟩ : Shape).ShapeCasts ⟨2, ![1, n]⟩) (h2 : (⟨2, ![1, n]⟩ : Shape).Broadcasts ⟨2, ![m, n]⟩) (r : Fin m) (c : Fin n) :
    broadcastTo ⟨2, ![m, n]⟩ (shapeCast ⟨2, ![1, n]⟩ u h1) h2 (ix2 r c) = u (ix1 c) := by
  rw [broadcastTo_1b_ab_apply, shapeCast_a_1a_apply]

end Cert.LibMatrixReduce

end
-- ==== Proof.LogSoftmax5.lean ====
/-
  The last layer's bias and log-softmax on the device, ten blocks of 10000 rows of a two-column array.

  Point `t` stages rows `10000·t … 10000·t + 9999` of the aggregated features and the one-row bias. The body adds the bias row to every
  staged row; takes each row's maximum from minus infinity, keeps it as a column and spreads it back along the row; subtracts; sums the
  exponentials of each row, takes the logarithm, spreads it along the row; subtracts again. Every step stays inside a row, so entry
  `(p, q)` of the block is the logarithm of the softmax of row `10000·t + p` plus the bias row, at column `q`: the block is the corresponding
  block of rows of the whole array's bias-and-log-softmax, and the ten blocks fill the result array.
-/
import proofs.«169351_j80333068304388_1_alg».proof.Proof.Gen.KernelIdeal.Frame
import proofs.«169351_j80333068304388_1_alg».proof.Proof.Entries
import proofs.«169351_j80333068304388_1_alg».proof.Proof.LibRows
import proofs.«169351_j80333068304388_1_alg».proof.Proof.LibRowMax
import proofs.«169351_j80333068304388_1_alg».proof.Proof.LibMatrixReduce
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LogSoftmax5

open Cert.KernelIdeal Cert.KernelIdeal.Gen Cert.Entries

-- the buffers' contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The staged rows with the bias row added to each. -/
def added (x0 : Vec Ideal S10000x2 .f32) (x1 : Vec Ideal S1x2 .f32) : FVec Ideal S10000x2 .f32 :=
  addf (shapeCast S10000x2 x0 shapeCasts_S10000x2_S10000x2)
    (broadcastTo S10000x2 (shapeCast S1x2 x1 shapeCasts_S1x2_S1x2) broadcasts_S1x2_S10000x2)

/-- Each row's maximum from minus infinity, kept as a column and spread along the row. -/
def topOf (v : FVec Ideal S10000x2 .f32) : FVec Ideal S10000x2 .f32 :=
  broadcastTo S10000x2
    (shapeCast S10000x1
      (maximumf (broadcast S10000 (Scalar.ofBits (F := Ideal) .f32 0xFF800000#32))
        (multiReduction .maximumf [1] S10000 v 0xFF800000#32 reduces_S10000x2_S10000 (.inl rfl) rfl))
      shapeCasts_S10000_S10000x1)
    broadcasts_S10000x1_S10000x2

/-- The logarithm of each row's sum, kept as a column and spread along the row. -/
def logSumOf (v : FVec Ideal S10000x2 .f32) : FVec Ideal S10000x2 .f32 :=
  broadcastTo S10000x2
    (log (shapeCast S10000x1 (multiReduction .add [1] S10000 v 0x00000000#32 reduces_S10000x2_S10000 (.inl rfl) rfl)
      shapeCasts_S10000_S10000x1))
    broadcasts_S10000x1_S10000x2

/-- The body's result is those pieces composed. -/
theorem pay_eq (x0 : Vec Ideal S10000x2 .f32) (x1 : Vec Ideal S1x2 .f32) :
    k5_pay1 x0 x1
      = subf (subf (added x0 x1) (topOf (added x0 x1))) (logSumOf (exp (subf (added x0 x1) (topOf (added x0 x1))))) := rfl

theorem added_apply (x0 : Vec Ideal S10000x2 .f32) (x1 : Vec Ideal S1x2 .f32) (p : Fin 10000) (c : Fin 2) :
    added x0 x1 (ix2 p c) = shifted (fun k : Fin 2 => x0 (ix2 p k)) x1 c := by
  unfold added
  rw [shapeCast_self, shapeCast_self]
  show x0 (ix2 p c) + broadcastTo S10000x2 x1 broadcasts_S1x2_S10000x2 (ix2 p c) = _
  rw [Cert.Rows.bcast_row (by decide) x1 broadcasts_S1x2_S10000x2 p c]
  rfl

theorem topOf_apply (v : FVec Ideal S10000x2 .f32) (p : Fin 10000) (c : Fin 2) :
    topOf v (ix2 p c)
      = max (Ideal.ofBits .f32 0xFF800000#32)
          ((Finset.univ : Finset (Fin 2)).fold max (Ideal.ofBits .f32 0xFF800000#32) (fun j => v (ix2 p j))) := by
  unfold topOf
  rw [Cert.LibMatrixReduce.keptCol_apply (by decide)]
  show max (Ideal.ofBits .f32 0xFF800000#32)
    (multiReduction .maximumf [1] S10000 v 0xFF800000#32 reduces_S10000x2_S10000 (.inl rfl) rfl (ix1 p)) = _
  exact congrArg (max (Ideal.ofBits .f32 0xFF800000#32))
    (Cert.LibRowMax.rowMax_apply v 0xFF800000#32 reduces_S10000x2_S10000 (.inl rfl) rfl p)

theorem logSumOf_apply (v : FVec Ideal S10000x2 .f32) (p : Fin 10000) (c : Fin 2) :
    logSumOf v (ix2 p c) = Ideal.log (∑ j : Fin 2, v (ix2 p j)) := by
  unfold logSumOf
  rw [Cert.Rows.bcast_col (by decide)]
  show Ideal.log (shapeCast S10000x1 (multiReduction .add [1] S10000 v 0x00000000#32 reduces_S10000x2_S10000 (.inl rfl) rfl)
    shapeCasts_S10000_S10000x1 (ix2 p 0)) = _
  rw [Cert.Rows.cast_col]
  exact congrArg Ideal.log (Cert.LibMatrixReduce.rowSum_apply v 0x00000000#32 reduces_S10000x2_S10000 (.inl rfl) rfl p)

/-- Entry `(p, q)` of the body's result: the log-softmax of staged row `p` plus the bias row, at column `q`. -/
theorem pay_apply (x0 : Vec Ideal S10000x2 .f32) (x1 : Vec Ideal S1x2 .f32) (p : Fin 10000) (q : Fin 2) :
    k5_pay1 x0 x1 (ix2 p q) = logSoftmaxRow (fun k : Fin 2 => x0 (ix2 p k)) x1 q := by
  rw [pay_eq]
  show (added x0 x1 (ix2 p q) - topOf (added x0 x1) (ix2 p q))
      - logSumOf (exp (subf (added x0 x1) (topOf (added x0 x1)))) (ix2 p q) = _
  rw [logSumOf_apply, topOf_apply, added_apply]
  have hrow : (fun j : Fin 2 => added x0 x1 (ix2 p j)) = shifted (fun k : Fin 2 => x0 (ix2 p k)) x1 :=
    funext fun j => added_apply x0 x1 p j
  have hsum : (∑ j : Fin 2, exp (subf (added x0 x1) (topOf (added x0 x1))) (ix2 p j))
      = ∑ j : Fin 2, Ideal.exp (shifted (fun k : Fin 2 => x0 (ix2 p k)) x1 j - rowTop (fun k : Fin 2 => x0 (ix2 p k)) x1) :=
    Finset.sum_congr rfl fun j _ => by
      show Ideal.exp (added x0 x1 (ix2 p j) - topOf (added x0 x1) (ix2 p j)) = _
      rw [topOf_apply, added_apply, hrow]
      rfl
  rw [hsum, hrow]
  rfl

/-- If the staged rows are rows `10000·T …` of `A` and the staged bias row is `B`, entry `y` of the body's result is entry
    `(10000·T + y₀, y₁)` of the bias-and-log-softmax of `A`. -/
theorem pay_eq_entry (A : Mat 100000 2) (B : Mat 1 2) (x0 : Vec Ideal S10000x2 .f32) (x1 : Vec Ideal S1x2 .f32) (T : ℕ)
    (hx : ∀ (y : S10000x2.Idx) (i : S100000x2.Idx), (i 0).val = 10000 * T + (y 0).val → (i 1).val = (y 1).val → x0 y = A i)
    (hb : ∀ y : S1x2.Idx, x1 y = B y)
    (y : S10000x2.Idx) (i : S100000x2.Idx) (h0 : (i 0).val = 10000 * T + (y 0).val) (h1 : (i 1).val = (y 1).val) :
    k5_pay1 x0 x1 y = biasLogSoftmax A B i := by
  obtain ⟨p, q, rfl⟩ : ∃ (p : Fin 10000) (q : Fin 2), y = ix2 p q := ⟨y 0, y 1, eq_ix2 y⟩
  obtain ⟨r, s, rfl⟩ : ∃ (r : Fin 100000) (s : Fin 2), i = ix2 r s := ⟨i 0, i 1, eq_ix2 i⟩
  have hs : s = q := Fin.ext h1
  subst hs
  have hrow : (fun k : Fin 2 => x0 (ix2 p k)) = rowOf A r := funext fun k => hx (ix2 p k) (ix2 r k) h0 rfl
  have hB : x1 = B := funext hb
  rw [pay_apply, hrow, hB]
  rfl

/-- The printed index maps over the grid: the features' and the result's block row is the point, every other block index zero. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Entry `y` of the features' block at point `t` is entry `(10000·t + y₀, y₁)` of the features. -/
theorem xblk_apply (c : Dev nD) (t : Fin cfg5.N) (y : S10000x2.Idx) (i : S100000x2.Idx)
    (h0 : (i 0).val = 10000 * t.val + (y 0).val) (h1 : (i 1).val = (y 1).val) :
    (iblk5 V c 0 t : Vec Ideal S10000x2 .f32) y = (V c main_v77 : S100000x2.Idx → EReal) i := by
  obtain ⟨e0, e1, -⟩ := idx_facts t
  unfold iblk5
  rw [View.read_apply]
  show V c main_v77 _ = V c main_v77 _
  congr 1
  funext a
  apply Fin.ext
  match a with
  | ⟨0, _⟩ => show win5_0.index t 0 * 10000 + 1 * (y 0).val = (i 0).val; rw [e0, h0]; omega
  | ⟨1, _⟩ => show win5_0.index t 1 * 2 + 1 * (y 1).val = (i 1).val; rw [e1, h1]; omega

/-- The bias row's block at every point is the bias row. -/
theorem bblk_apply (c : Dev nD) (t : Fin cfg5.N) (y : S1x2.Idx) :
    (iblk5 V c 1 t : Vec Ideal S1x2 .f32) y = (V c main_v78 : S1x2.Idx → EReal) y := by
  obtain ⟨-, -, e2, e3, -⟩ := idx_facts t
  unfold iblk5
  rw [View.read_apply]
  show V c main_v78 _ = V c main_v78 _
  congr 1
  funext a
  apply Fin.ext
  match a with
  | ⟨0, _⟩ => show win5_1.index t 0 * 1 + 1 * (y 0).val = (y 0).val; rw [e2]; omega
  | ⟨1, _⟩ => show win5_1.index t 1 * 2 + 1 * (y 1).val = (y 1).val; rw [e3]; omega

/-- What point `t` writes back is block `t` of the bias-and-log-softmax of the two arrays as the region finds them. -/
theorem flushed_eq (c : Dev nD) (t : Fin cfg5.N) :
    (dat5 V c).flushed 2 t
      = ((cfg5.win 2).blk t).view.read (Elt Ideal) (biasLogSoftmax (V c main_v77) (V c main_v78) : S100000x2.Idx → EReal) := by
  show (cfg5.win 2).cut (grid5.coords t) ((dat5 V c).after 2 t) = _
  rw [after5_2]
  unfold out5_2
  rw [View.canon_unit_zero hz]
  simp only [View.ld_unit_zero (S := S10000x2) hz, View.ld_unit_zero (S := S1x2) hz]
  obtain ⟨-, -, -, -, e4, e5⟩ := idx_facts t
  funext j
  rw [View.read_apply]
  refine pay_eq_entry (V c main_v77) (V c main_v78) (iblk5 V c 0 t) (iblk5 V c 1 t) t.val
    (fun y i h0 h1 => xblk_apply V c t y i h0 h1) (fun y => bblk_apply V c t y) j (((cfg5.win 2).blk t).view.emb j) ?_ ?_
  · show win5_2.index t 0 * 10000 + 1 * (j 0).val = 10000 * t.val + (j 0).val; rw [e4]; omega
  · show win5_2.index t 1 * 2 + 1 * (j 1).val = (j 1).val; rw [e5]; omega

/-- An index of the result array is in point `t`'s block iff each coordinate is in the block's range on its axis. -/
theorem mem_blk (t : Fin cfg5.N) (i : S100000x2.Idx) :
    i ∈ ((cfg5.win 2).blk t).view.set ↔ ∀ a : Fin 2, win5_2.index t a * S10000x2.size a ≤ (i a).val ∧ (i a).val < win5_2.index t a * S10000x2.size a + S10000x2.size a := by
  show i ∈ ((View.whole (Pipeline.arrRef spec5 2)).slice (win5_2.rect t)).set ↔ _
  rw [View.set_slice_whole, Rect.mem_set_unit]
  exact Iff.rfl

/-- Row `r` of the result lies in the block of point `r / 10000`: the ten blocks fill the array. -/
theorem cover (i : S100000x2.Idx) : ∃ t : Fin cfg5.N, (cfg5.win 2).flush t = true ∧ i ∈ ((cfg5.win 2).blk t).view.set := by
  have hi0 : (i 0).val < 100000 := (i 0).isLt
  have hi1 : (i 1).val < 2 := (i 1).isLt
  have hN : cfg5.N = 10 := N_5
  refine ⟨⟨(i 0).val / 10000, by rw [hN]; omega⟩, flush5_2 _, ?_⟩
  rw [mem_blk]
  obtain ⟨-, -, -, -, e4, e5⟩ := idx_facts ⟨(i 0).val / 10000, by rw [hN]; omega⟩
  intro a
  match a with
  | ⟨0, _⟩ =>
    show win5_2.index _ 0 * 10000 ≤ (i 0).val ∧ (i 0).val < win5_2.index _ 0 * 10000 + 10000
    rw [e4]; show (i 0).val / 10000 * 10000 ≤ (i 0).val ∧ (i 0).val < (i 0).val / 10000 * 10000 + 10000; omega
  | ⟨1, _⟩ =>
    show win5_2.index _ 1 * 2 ≤ (i 1).val ∧ (i 1).val < win5_2.index _ 1 * 2 + 2
    rw [e5]; omega

/-- The result array after the region: the bias-and-log-softmax of the two arrays as the region finds them. -/
theorem final (c : Dev nD) :
    (dat5 V c).arrAt 2 cfg5.N = (biasLogSoftmax (V c main_v77) (V c main_v78) : S100000x2.Idx → EReal) :=
  (dat5 V c).arrAt_eq_of_cover 2 _ (fun t _ => flushed_eq V c t) cover

end Cert.KernelIdeal.LogSoftmax5

end
-- ==== Proof.LibRowBroadcast.lean ====
/-
  A vector laid out as a row and repeated down the rows, read at an entry.

  A length-`N` vector `v` made a `[1, N]` row — by a reshape, or by a broadcast along a new leading axis — has
  `v c` at `(0, c)`; the row repeated down `M` rows has `v c` at `(r, c)`. (For `N = 1` the repeated axis and
  the kept axis could not be told apart by their extents, hence the side condition.)
-/
import Idealize.ShloMosaic.Lib.ValueIdx
import Idealize.ShloMosaic.Lib.Pipeline.Value

noncomputable section

namespace Cert.LibRowBroadcast

open Idealize.ShloMosaic Idealize.ShloMosaic.ValueIdx

variable {α : Type}

/-- A vector reshaped to a `[1, N]` row, at `(0, c)`. -/
theorem row_cast {N : Nat} (v : (⟨1, ![N]⟩ : Shape).Idx → α) (h : (⟨1, ![N]⟩ : Shape).ShapeCasts ⟨2, ![1, N]⟩) (c : Fin N) :
    shapeCast ⟨2, ![1, N]⟩ v h (ix2 0 c) = v (ix1 c) :=
  shapeCast_apply v h (ix2 0 c) (ix1 c) (by
    rw [Shape.rowMajor_val_one, Shape.rowMajor_val_two]; show c.val = 0 * N + c.val; omega)

/-- A vector broadcast to a `[1, N]` row along a new leading axis, at `(0, c)`. -/
theorem row_bcast {N : Nat} (v : (⟨1, ![N]⟩ : Shape).Idx → α)
    (h : (⟨1, ![N]⟩ : Shape).BroadcastsInDim ⟨2, ![1, N]⟩ ![1]) (c : Fin N) :
    broadcastInDim ⟨2, ![1, N]⟩ ![1] h v (ix2 0 c) = v (ix1 c) :=
  broadcastInDim_apply ![1] h v (ix2 0 c) (ix1 c) (fun a => match a with
    | ⟨0, _⟩ => by
      show c.val = (if N = 1 then 0 else c.val)
      split
      · have := c.isLt; omega
      · rfl)

/-- A `[1, N]` row repeated down `M` rows, at `(r, c)`. -/
theorem rows_bcast {M N : Nat} (hN : N ≠ 1) (w : (⟨2, ![1, N]⟩ : Shape).Idx → α)
    (h : (⟨2, ![1, N]⟩ : Shape).BroadcastsInDim ⟨2, ![M, N]⟩ ![0, 1]) (r : Fin M) (c : Fin N) :
    broadcastInDim ⟨2, ![M, N]⟩ ![0, 1] h w (ix2 r c) = w (ix2 0 c) :=
  broadcastInDim_apply ![0, 1] h w (ix2 r c) (ix2 0 c) (fun a => match a with
    | ⟨0, _⟩ => by show 0 = (if (1 : ℕ) = 1 then 0 else r.val); rw [if_pos rfl]
    | ⟨1, _⟩ => by show c.val = (if N = 1 then 0 else c.val); rw [if_neg hN])

end Cert.LibRowBroadcast

end
-- ==== Proof.RefStages.lean ====
/-
  The reference's dense steps are the entry-by-entry steps of `Entries`.

  Read one operation at a time, the reference computes: a `dot_general` contracting the left operand's columns with the right
  operand's rows — entry `(r, s)` is `Σ_k l (r, k) · w (k, s)`; the bias as a `[1, N]` row repeated down the rows, added, and the
  maximum with a zero array — entry `(r, s)` is `max (a (r, s) + b (0, s)) 0`; and, in the last layer, the bias added and then
  `log_softmax` along the rows: the row maximum from minus infinity kept as a column and repeated along the row, subtracted, the
  exponentials summed along the row from zero, the logarithm kept as a column, repeated and subtracted. A bias vector made a row by a
  reshape or by a repetition along a new leading axis is the same row.
-/
import proofs.«169351_j80333068304388_1_alg».proof.Proof.RefReadP
import proofs.«169351_j80333068304388_1_alg».proof.Proof.Entries
import proofs.«169351_j80333068304388_1_alg».proof.Proof.LibRowBroadcast
import proofs.«169351_j80333068304388_1_alg».proof.Proof.LibHostReads

set_option maxRecDepth 16384

noncomputable section

open Idealize.ShloMosaic Idealize.ShloMosaic.TcCoe Idealize.ShloMosaic.ValueIdx

namespace Cert.ReferenceIdeal.Stages

open Cert.ReferenceIdeal Cert.ReferenceIdeal.Gen Cert.ReferenceIdeal.ReadP Cert.Entries

variable (x0 : (⟨S100000x128, .f32⟩ : BufTy).Contents (Elt Ideal)) (x1 : (⟨S2x3200000, .i32⟩ : BufTy).Contents (Elt Ideal))
  (x2 : (⟨S128x16, .f32⟩ : BufTy).Contents (Elt Ideal)) (x3 : (⟨S16, .f32⟩ : BufTy).Contents (Elt Ideal))
  (x4 : (⟨S16x16, .f32⟩ : BufTy).Contents (Elt Ideal)) (x5 : (⟨S16, .f32⟩ : BufTy).Contents (Elt Ideal))
  (x6 : (⟨S16x2, .f32⟩ : BufTy).Contents (Elt Ideal)) (x7 : (⟨S2, .f32⟩ : BufTy).Contents (Elt Ideal))

/-! ## The steps of `Entries` at an entry given by coordinates (over arbitrary arrays) -/

section At
variable {M K N : ℕ}

theorem matProd_at (x : Mat M K) (w : Mat K N) (r : Fin M) (s : Fin N) :
    matProd x w (ix2 r s) = ∑ k : Fin K, x (ix2 r k) * w (ix2 k s) := rfl

theorem biasRelu_at (a : Mat M N) (b : Mat 1 N) (r : Fin M) (s : Fin N) :
    biasRelu a b (ix2 r s) = max (a (ix2 r s) + b (ix2 0 s)) (Ideal.ofBits .f32 0x00000000#32) := rfl

theorem biasLogSoftmax_at (a : Mat M N) (b : Mat 1 N) (r : Fin M) (s : Fin N) :
    biasLogSoftmax a b (ix2 r s) = logSoftmaxRow (rowOf a r) b s := rfl

theorem shifted_rowOf (a : Mat M N) (b : Mat 1 N) (r : Fin M) (j : Fin N) :
    shifted (rowOf a r) b j = a (ix2 r j) + b (ix2 0 j) := rfl

end At

/-! ## The three products -/

theorem dense1 : val_main_v32 (F := Ideal) x0 x2 = (matProd x0 x2 : S100000x16.Idx → EReal) := by
  funext i
  obtain ⟨r, s, rfl⟩ : ∃ (r : Fin 100000) (s : Fin 16), i = ix2 r s := ⟨i 0, i 1, eq_ix2 i⟩
  rw [matProd_at, val_main_v32_apply]
  refine Finset.sum_congr rfl fun k _ => ?_
  have el : lidx_main_v32 (ix2 r s) k = ix2 r k := funext fun a => Fin.ext (by match a with | ⟨0, _⟩ => rfl | ⟨1, _⟩ => rfl)
  have er : ridx_main_v32 (ix2 r s) k = ix2 k s := funext fun a => Fin.ext (by match a with | ⟨0, _⟩ => rfl | ⟨1, _⟩ => rfl)
  rw [el, er]

theorem dense2 : val_main_v50 (F := Ideal) x0 x1 x2 x3 x4
    = (matProd (val_main_v49 (F := Ideal) x0 x1 x2 x3) x4 : S100000x16.Idx → EReal) := by
  funext i
  obtain ⟨r, s, rfl⟩ : ∃ (r : Fin 100000) (s : Fin 16), i = ix2 r s := ⟨i 0, i 1, eq_ix2 i⟩
  rw [matProd_at, val_main_v50_apply]
  refine Finset.sum_congr rfl fun k _ => ?_
  have el : lidx_main_v50 (ix2 r s) k = ix2 r k := funext fun a => Fin.ext (by match a with | ⟨0, _⟩ => rfl | ⟨1, _⟩ => rfl)
  have er : ridx_main_v50 (ix2 r s) k = ix2 k s := funext fun a => Fin.ext (by match a with | ⟨0, _⟩ => rfl | ⟨1, _⟩ => rfl)
  rw [el, er]

theorem dense3 : val_main_v68 (F := Ideal) x0 x1 x2 x3 x4 x5 x6
    = (matProd (val_main_v67 (F := Ideal) x0 x1 x2 x3 x4 x5) x6 : S100000x2.Idx → EReal) := by
  funext i
  obtain ⟨r, s, rfl⟩ : ∃ (r : Fin 100000) (s : Fin 2), i = ix2 r s := ⟨i 0, i 1, eq_ix2 i⟩
  rw [matProd_at, val_main_v68_apply]
  refine Finset.sum_congr rfl fun k _ => ?_
  have el : lidx_main_v68 (ix2 r s) k = ix2 r k := funext fun a => Fin.ext (by match a with | ⟨0, _⟩ => rfl | ⟨1, _⟩ => rfl)
  have er : ridx_main_v68 (ix2 r s) k = ix2 k s := funext fun a => Fin.ext (by match a with | ⟨0, _⟩ => rfl | ⟨1, _⟩ => rfl)
  rw [el, er]

/-! ## The two bias-and-cut-off steps -/

theorem relu1 : val_main_v49 (F := Ideal) x0 x1 x2 x3
    = (biasRelu (val_main_v45 (F := Ideal) x0 x1 x2) (val_main_v46 (F := Ideal) x3) : S100000x16.Idx → EReal) := by
  funext i
  obtain ⟨r, s, rfl⟩ : ∃ (r : Fin 100000) (s : Fin 16), i = ix2 r s := ⟨i 0, i 1, eq_ix2 i⟩
  have e : idx_main_v47 (ix2 r s) = ix2 0 s := funext fun a => Fin.ext (by match a with | ⟨0, _⟩ => rfl | ⟨1, _⟩ => rfl)
  rw [biasRelu_at, val_main_v49_apply, val_main_v48_apply, val_main_v47_apply, val_main_call1_v0_apply, val_main_call1_cst_apply, e]
  rfl

theorem relu2 : val_main_v67 (F := Ideal) x0 x1 x2 x3 x4 x5
    = (biasRelu (val_main_v63 (F := Ideal) x0 x1 x2 x3 x4) (val_main_v64 (F := Ideal) x5) : S100000x16.Idx → EReal) := by
  funext i
  obtain ⟨r, s, rfl⟩ : ∃ (r : Fin 100000) (s : Fin 16), i = ix2 r s := ⟨i 0, i 1, eq_ix2 i⟩
  have e : idx_main_v65 (ix2 r s) = ix2 0 s := funext fun a => Fin.ext (by match a with | ⟨0, _⟩ => rfl | ⟨1, _⟩ => rfl)
  rw [biasRelu_at, val_main_v67_apply, val_main_v66_apply, val_main_v65_apply, val_main_call2_v0_apply, val_main_call2_cst_apply, e]
  rfl

/-! ## A bias vector as a row, by a reshape or by a repetition along a new leading axis -/

theorem row_forms {α : Type} {N : ℕ} (v : (⟨1, ![N]⟩ : Shape).Idx → α) (h1 : (⟨1, ![N]⟩ : Shape).ShapeCasts ⟨2, ![1, N]⟩)
    (h2 : (⟨1, ![N]⟩ : Shape).BroadcastsInDim ⟨2, ![1, N]⟩ ![1]) :
    shapeCast ⟨2, ![1, N]⟩ v h1 = broadcastInDim ⟨2, ![1, N]⟩ ![1] h2 v := by
  funext i
  obtain ⟨z, c, rfl⟩ : ∃ (z : Fin 1) (c : Fin N), i = ix2 z c := ⟨i 0, i 1, eq_ix2 i⟩
  obtain rfl : z = 0 := Subsingleton.elim _ _
  rw [Cert.LibRowBroadcast.row_cast, Cert.LibRowBroadcast.row_bcast]

/-! ## The bias and `log_softmax` -/

section LogSoftmax

local notation "A" => (val_main_v81 (F := Ideal) x0 x1 x2 x3 x4 x5 x6 : Mat 100000 2)
local notation "B" => (val_main_v82 (F := Ideal) x7 : Mat 1 2)

theorem shifted_apply (r : Fin 100000) (j : Fin 2) :
    val_main_v84 (F := Ideal) x0 x1 x2 x3 x4 x5 x6 x7 (ix2 r j) = shifted (rowOf A r) B j := by
  have e : idx_main_v83 (ix2 r j) = ix2 0 j := funext fun a => Fin.ext (by match a with | ⟨0, _⟩ => rfl | ⟨1, _⟩ => rfl)
  rw [shifted_rowOf, val_main_v84_apply, val_main_v83_apply, e]
  rfl

theorem top_apply (r : Fin 100000) :
    val_main_call3_v2 (F := Ideal) x0 x1 x2 x3 x4 x5 x6 x7 (ix1 r) = rowTop (rowOf A r) B := by
  rw [val_main_call3_v2_apply, val_main_call3_v1_apply, val_main_call3_cst_0_apply]
  have hrow : (fun c : Fin 2 => val_main_v84 (F := Ideal) x0 x1 x2 x3 x4 x5 x6 x7 (ix2 r c)) = shifted (rowOf A r) B :=
    funext fun c => shifted_apply x0 x1 x2 x3 x4 x5 x6 x7 r c
  have h0 : val_main_call3_v0 (F := Ideal) x0 x1 x2 x3 x4 x5 x6 x7 (ix1 r)
      = (Finset.univ : Finset (Fin 2)).fold max (Ideal.ofBits .f32 0xFF800000#32) (shifted (rowOf A r) B) := by
    unfold val_main_call3_v0
    refine (Cert.LibHostReads.hostRowMax_apply (val_main_v84 (F := Ideal) x0 x1 x2 x3 x4 x5 x6 x7) (val_main_call3_cst (F := Ideal))
      reducesTo_S100000x2_S100000_d1 h_S_ r).trans ?_
    rw [hrow]
    rfl
  rw [h0]
  rfl

theorem spread_top_apply (r : Fin 100000) (s : Fin 2) :
    val_main_call3_v4 (F := Ideal) x0 x1 x2 x3 x4 x5 x6 x7 (ix2 r s) = rowTop (rowOf A r) B := by
  rw [val_main_call3_v4_apply, val_main_call3_v3_apply]
  have e : idx_main_call3_v3 (idx_main_call3_v4 (ix2 r s)) = ix1 r := funext fun a => Fin.ext (by match a with | ⟨0, _⟩ => rfl)
  rw [e, top_apply]

theorem centred_apply (r : Fin 100000) (s : Fin 2) :
    val_main_call3_v5 (F := Ideal) x0 x1 x2 x3 x4 x5 x6 x7 (ix2 r s) = shifted (rowOf A r) B s - rowTop (rowOf A r) B := by
  rw [val_main_call3_v5_apply, shifted_apply, spread_top_apply]
  rfl

theorem expsum_apply (r : Fin 100000) :
    val_main_call3_v7 (F := Ideal) x0 x1 x2 x3 x4 x5 x6 x7 (ix1 r)
      = ∑ j : Fin 2, Ideal.exp (shifted (rowOf A r) B j - rowTop (rowOf A r) B) := by
  rw [val_main_call3_v7_apply]
  have hz : val_main_call3_cst_1 (F := Ideal) (Shape.Idx.first h_S_) = 0 := Ideal.ofBits_zero_f32
  rw [hz, zero_add]
  refine Finset.sum_congr rfl fun k _ => ?_
  have e : idx_main_call3_v7 (ix1 r) k = ix2 r k := funext fun a => Fin.ext (by match a with | ⟨0, _⟩ => rfl | ⟨1, _⟩ => rfl)
  rw [e, val_main_call3_v6_apply, centred_apply]
  exact Ideal.hostUnary_exp_def _

theorem spread_log_apply (r : Fin 100000) (s : Fin 2) :
    val_main_call3_v10 (F := Ideal) x0 x1 x2 x3 x4 x5 x6 x7 (ix2 r s)
      = Ideal.log (∑ j : Fin 2, Ideal.exp (shifted (rowOf A r) B j - rowTop (rowOf A r) B)) := by
  rw [val_main_call3_v10_apply, val_main_call3_v9_apply, val_main_call3_v8_apply]
  have e : idx_main_call3_v8 (idx_main_call3_v10 (ix2 r s)) = ix1 r := funext fun a => Fin.ext (by match a with | ⟨0, _⟩ => rfl)
  rw [e, expsum_apply]
  exact Ideal.hostUnary_log_def _

theorem logSoftmax : val_main_v85 (F := Ideal) x0 x1 x2 x3 x4 x5 x6 x7 = (biasLogSoftmax A B : S100000x2.Idx → EReal) := by
  funext i
  obtain ⟨r, s, rfl⟩ : ∃ (r : Fin 100000) (s : Fin 2), i = ix2 r s := ⟨i 0, i 1, eq_ix2 i⟩
  rw [biasLogSoftmax_at, val_main_v85_apply, centred_apply, spread_log_apply]
  rfl

end LogSoftmax

end Cert.ReferenceIdeal.Stages

end
-- ==== Proof.Bridge.lean ====
/-
  The device program's buffers at each segment boundary are the reference's stages.

  Both programs compute the same normalized adjacency data from the edge list (source and target lists with self loops, the
  symmetric normalization `norm`) by the same host operations, and then three layers: a linear map, a gather of rows along the
  sources scaled by `norm`, an accumulating scatter along the targets, a bias and an activation. The device program does the
  linear maps and the bias-and-activation steps in kernel regions, block of rows by block of rows; the reference does them
  by a `dot_general`, a repeated bias row and `relu` / `log_softmax`. Segment by segment: a stretch of host operations applied to
  buffers that hold the reference's stages gives the reference's later stages, operation for operation; a region leaves in its
  output array the entry-by-entry step of `Entries` (`Dense*`, `Relu*`, `LogSoftmax5`), which is what the reference's operations
  compute (`RefStages`); every other live buffer is carried unchanged. At the end the result buffer holds the reference's
  result as a function of the launch arrays.
-/
import proofs.«169351_j80333068304388_1_alg».proof.Proof.KernelRun
import proofs.«169351_j80333068304388_1_alg».proof.Proof.Dense0
import proofs.«169351_j80333068304388_1_alg».proof.Proof.Relu1
import proofs.«169351_j80333068304388_1_alg».proof.Proof.Dense2
import proofs.«169351_j80333068304388_1_alg».proof.Proof.Relu3
import proofs.«169351_j80333068304388_1_alg».proof.Proof.Dense4
import proofs.«169351_j80333068304388_1_alg».proof.Proof.LogSoftmax5
import proofs.«169351_j80333068304388_1_alg».proof.Proof.RefStages

set_option maxRecDepth 16384

noncomputable section

open Idealize.ShloMosaic Idealize.ShloMosaic.TcCoe Idealize.SL.Sem Idealize.ShloMosaic.StableHlo

namespace Cert.Bridge

open Cert.KernelIdeal Cert.KernelIdeal.Gen Cert.ReferenceIdeal.ReadP Cert.Entries

variable (m : (ℓ : Loc nD τ sig) → Buf (Elt Ideal) ℓ) (ρ : Dev nD → PrngReg) (c : Dev nD)

/-! ## The launch arrays -/

abbrev arg0 : (⟨S100000x128, .f32⟩ : BufTy).Contents (Elt Ideal) := m ((c.tc : Thread nD τ).loc main_arg0)
abbrev arg1 : (⟨S2x3200000, .i32⟩ : BufTy).Contents (Elt Ideal) := m ((c.tc : Thread nD τ).loc main_arg1)
abbrev arg2 : (⟨S128x16, .f32⟩ : BufTy).Contents (Elt Ideal) := m ((c.tc : Thread nD τ).loc main_arg2)
abbrev arg3 : (⟨S16, .f32⟩ : BufTy).Contents (Elt Ideal) := m ((c.tc : Thread nD τ).loc main_arg3)
abbrev arg4 : (⟨S16x16, .f32⟩ : BufTy).Contents (Elt Ideal) := m ((c.tc : Thread nD τ).loc main_arg4)
abbrev arg5 : (⟨S16, .f32⟩ : BufTy).Contents (Elt Ideal) := m ((c.tc : Thread nD τ).loc main_arg5)
abbrev arg6 : (⟨S16x2, .f32⟩ : BufTy).Contents (Elt Ideal) := m ((c.tc : Thread nD τ).loc main_arg6)
abbrev arg7 : (⟨S2, .f32⟩ : BufTy).Contents (Elt Ideal) := m ((c.tc : Thread nD τ).loc main_arg7)

/-! ## Before the first region: the edge lists with self loops and the normalization, and the arguments as launched -/

theorem w3_v3 : W3 m ρ c (Proc.devRef .tc main_v3) = val_main_v3 (F := Ideal) (arg1 m c) := by
  show after hostOps0_2 (after hostOps0_1 (after hostOps0 (W0 m ρ c))) (Proc.devRef .tc main_v3) = _
  after_results_simp
  rfl

theorem w3_v6 : W3 m ρ c (Proc.devRef .tc main_v6) = val_main_v6 (F := Ideal) (arg1 m c) := by
  show after hostOps0_2 (after hostOps0_1 (after hostOps0 (W0 m ρ c))) (Proc.devRef .tc main_v6) = _
  after_results_simp
  rfl

theorem w2_v3 : W2 m ρ c (Proc.devRef .tc main_v3) = val_main_v3 (F := Ideal) (arg1 m c) := by
  show after hostOps0_1 (after hostOps0 (W0 m ρ c)) (Proc.devRef .tc main_v3) = _
  after_results_simp
  rfl

theorem w2_v6 : W2 m ρ c (Proc.devRef .tc main_v6) = val_main_v6 (F := Ideal) (arg1 m c) := by
  show after hostOps0_1 (after hostOps0 (W0 m ρ c)) (Proc.devRef .tc main_v6) = _
  after_results_simp
  rfl

/-- Operations run one list after another are their concatenation run as one. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The target list with self loops, after the first seven operations. -/
theorem first7_v6 : after (List.take 7 hostOps0) (W0 m ρ c) (Proc.devRef .tc main_v6) = val_main_v6 (F := Ideal) (arg1 m c) := by
  simp only [hostOps0, List.take_succ_cons, List.take_zero]
  after_results_simp
  rfl

/-- Contents carried to the type of an outlined function's buffer, or back, are the contents. -/
theorem toBuf_v16 (v : (⟨S100000, .f32⟩ : BufTy).Contents (Elt Ideal)) : (TRef.of (T := ⟨S100000, .f32⟩) main_v16).toBuf v = v := rfl
theorem ofBuf_v12 (v : (⟨S100000, .i1⟩ : BufTy).Contents (Elt Ideal)) : (TRef.of (T := ⟨S100000, .i1⟩) main_v12).ofBuf v = v := rfl
theorem ofBuf_v15 (v : (⟨S100000, .f32⟩ : BufTy).Contents (Elt Ideal)) : (TRef.of (T := ⟨S100000, .f32⟩) main_v15).ofBuf v = v := rfl
theorem ofBuf_cst_3 (v : (⟨S_, .f32⟩ : BufTy).Contents (Elt Ideal)) : (TRef.of (T := ⟨S_, .f32⟩) main_cst_3).ofBuf v = v := rfl

/-- The two programs' dimension numbers of the scatter of a vector along an index column are one record. -/
theorem scatter_vec_eq : (scatter_S100000_S3300000x1_S3300000_n_0_0_1 : ScatterDims S100000 S3300000x1 S3300000)
    = Cert.ReferenceIdeal.scatter_S100000_S3300000x1_S3300000_n_0_0_1 := rfl

/-- The in-degree (a scatter of ones along the targets), its test against zero and its inverse square root, selected: the per-node
    factor of the normalization, over any buffer contents that hold the target list. -/
theorem degree_of (Wv : Valuation τ sig (Elt Ideal)) (x1 : (⟨S2x3200000, .i32⟩ : BufTy).Contents (Elt Ideal))
    (h6 : Wv (Proc.devRef .tc main_v6) = val_main_v6 (F := Ideal) x1) :
    after hostOps0_1 (after (List.drop 7 hostOps0) Wv) (Proc.devRef .tc main_v16) = val_main_v16 (F := Ideal) x1 := by
  simp only [hostOps0, List.drop_succ_cons, List.drop_zero]
  after_results_simp
  rw [h6]
  simp only [Cert.LibHostReads.ofBuf_toBuf]
  rw [toBuf_v16, ofBuf_v12, ofBuf_v15, ofBuf_cst_3, scatter_vec_eq]
  rfl

theorem w2_v16 : W2 m ρ c (Proc.devRef .tc main_v16) = val_main_v16 (F := Ideal) (arg1 m c) := by
  show after hostOps0_1 (after hostOps0 (W0 m ρ c)) (Proc.devRef .tc main_v16) = _
  have hs : after hostOps0 (W0 m ρ c) = after (List.drop 7 hostOps0) (after (List.take 7 hostOps0) (W0 m ρ c)) :=
    (congrArg (fun l => after l (W0 m ρ c)) (List.take_append_drop 7 (hostOps0 (F := Ideal))).symm).trans (after_append _ _ _)
  exact (congrArg (fun V => after hostOps0_1 V (Proc.devRef .tc main_v16)) hs).trans (degree_of _ _ (first7_v6 m ρ c))

/-- The normalization of every edge from the edge lists and the per-node factors, over any buffer contents that hold them. -/
theorem norm_of (Wv : Valuation τ sig (Elt Ideal)) (x1 : (⟨S2x3200000, .i32⟩ : BufTy).Contents (Elt Ideal))
    (h3 : Wv (Proc.devRef .tc main_v3) = val_main_v3 (F := Ideal) x1) (h6 : Wv (Proc.devRef .tc main_v6) = val_main_v6 (F := Ideal) x1)
    (h16 : Wv (Proc.devRef .tc main_v16) = val_main_v16 (F := Ideal) x1) :
    after hostOps0_2 Wv (Proc.devRef .tc main_v31) = val_main_v31 (F := Ideal) x1 := by
  after_results_simp
  rw [h3, h6, h16]
  rfl

theorem w3_v31 : W3 m ρ c (Proc.devRef .tc main_v31) = val_main_v31 (F := Ideal) (arg1 m c) :=
  norm_of (W2 m ρ c) _ (w2_v3 m ρ c) (w2_v6 m ρ c) (w2_v16 m ρ c)

theorem w3_arg0 : W3 m ρ c (Proc.devRef .tc main_arg0) = arg0 m c := by
  show after hostOps0_2 (after hostOps0_1 (after hostOps0 (W0 m ρ c))) (Proc.devRef .tc main_arg0) = _
  after_results_simp

theorem w3_arg2 : W3 m ρ c (Proc.devRef .tc main_arg2) = arg2 m c := by
  show after hostOps0_2 (after hostOps0_1 (after hostOps0 (W0 m ρ c))) (Proc.devRef .tc main_arg2) = _
  after_results_simp

theorem w3_arg3 : W3 m ρ c (Proc.devRef .tc main_arg3) = arg3 m c := by
  show after hostOps0_2 (after hostOps0_1 (after hostOps0 (W0 m ρ c))) (Proc.devRef .tc main_arg3) = _
  after_results_simp

theorem w3_arg4 : W3 m ρ c (Proc.devRef .tc main_arg4) = arg4 m c := by
  show after hostOps0_2 (after hostOps0_1 (after hostOps0 (W0 m ρ c))) (Proc.devRef .tc main_arg4) = _
  after_results_simp

theorem w3_arg5 : W3 m ρ c (Proc.devRef .tc main_arg5) = arg5 m c := by
  show after hostOps0_2 (after hostOps0_1 (after hostOps0 (W0 m ρ c))) (Proc.devRef .tc main_arg5) = _
  after_results_simp

theorem w3_arg6 : W3 m ρ c (Proc.devRef .tc main_arg6) = arg6 m c := by
  show after hostOps0_2 (after hostOps0_1 (after hostOps0 (W0 m ρ c))) (Proc.devRef .tc main_arg6) = _
  after_results_simp

theorem w3_arg7 : W3 m ρ c (Proc.devRef .tc main_arg7) = arg7 m c := by
  show after hostOps0_2 (after hostOps0_1 (after hostOps0 (W0 m ρ c))) (Proc.devRef .tc main_arg7) = _
  after_results_simp

/-! ## The first layer -/

/-- Region 0 leaves `x · W1`. -/
theorem w4_v32 : W4 m ρ c (Proc.devRef .tc main_v32) = val_main_v32 (F := Ideal) (arg0 m c) (arg2 m c) := by
  refine (W4_arr m ρ c 2).trans ((Cert.KernelIdeal.Dense0.final (V3 m ρ) c).trans ?_)
  show matProd (W3 m ρ c (Proc.devRef .tc main_arg0)) (W3 m ρ c (Proc.devRef .tc main_arg2)) = _
  rw [w3_arg0 m ρ c, w3_arg2 m ρ c]
  exact (Cert.ReferenceIdeal.Stages.dense1 _ _).symm

theorem w4_v3 : W4 m ρ c (Proc.devRef .tc main_v3) = val_main_v3 (F := Ideal) (arg1 m c) :=
  (W4_of_ne m ρ c main_v3 (by decide)).trans (w3_v3 m ρ c)
theorem w4_v6 : W4 m ρ c (Proc.devRef .tc main_v6) = val_main_v6 (F := Ideal) (arg1 m c) :=
  (W4_of_ne m ρ c main_v6 (by decide)).trans (w3_v6 m ρ c)
theorem w4_v31 : W4 m ρ c (Proc.devRef .tc main_v31) = val_main_v31 (F := Ideal) (arg1 m c) :=
  (W4_of_ne m ρ c main_v31 (by decide)).trans (w3_v31 m ρ c)
theorem w4_arg3 : W4 m ρ c (Proc.devRef .tc main_arg3) = arg3 m c :=
  (W4_of_ne m ρ c main_arg3 (by decide)).trans (w3_arg3 m ρ c)
theorem w4_arg4 : W4 m ρ c (Proc.devRef .tc main_arg4) = arg4 m c :=
  (W4_of_ne m ρ c main_arg4 (by decide)).trans (w3_arg4 m ρ c)
theorem w4_arg5 : W4 m ρ c (Proc.devRef .tc main_arg5) = arg5 m c :=
  (W4_of_ne m ρ c main_arg5 (by decide)).trans (w3_arg5 m ρ c)
theorem w4_arg6 : W4 m ρ c (Proc.devRef .tc main_arg6) = arg6 m c :=
  (W4_of_ne m ρ c main_arg6 (by decide)).trans (w3_arg6 m ρ c)
theorem w4_arg7 : W4 m ρ c (Proc.devRef .tc main_arg7) = arg7 m c :=
  (W4_of_ne m ρ c main_arg7 (by decide)).trans (w3_arg7 m ρ c)

/-- The gather along the sources, the scaling by the normalization and the scatter along the targets, operation for operation. -/
theorem w5_v45 : W5 m ρ c (Proc.devRef .tc main_v45) = val_main_v45 (F := Ideal) (arg0 m c) (arg1 m c) (arg2 m c) := by
  show after hostOps1 (W4 m ρ c) (Proc.devRef .tc main_v45) = _
  after_results_simp
  rw [w4_v3 m ρ c, w4_v6 m ρ c, w4_v31 m ρ c, w4_v32 m ρ c]
  rfl

/-- The bias as a row: the device program reshapes the vector, the reference repeats it along a new leading axis. -/
theorem w5_v46 : W5 m ρ c (Proc.devRef .tc main_v46) = val_main_v46 (F := Ideal) (arg3 m c) := by
  show after hostOps1 (W4 m ρ c) (Proc.devRef .tc main_v46) = _
  after_results_simp
  rw [w4_arg3 m ρ c]
  exact Cert.ReferenceIdeal.Stages.row_forms _ _ _

theorem w5_v3 : W5 m ρ c (Proc.devRef .tc main_v3) = val_main_v3 (F := Ideal) (arg1 m c) := by
  show after hostOps1 (W4 m ρ c) (Proc.devRef .tc main_v3) = _
  after_results_simp
  exact w4_v3 m ρ c
theorem w5_v6 : W5 m ρ c (Proc.devRef .tc main_v6) = val_main_v6 (F := Ideal) (arg1 m c) := by
  show after hostOps1 (W4 m ρ c) (Proc.devRef .tc main_v6) = _
  after_results_simp
  exact w4_v6 m ρ c
theorem w5_v31 : W5 m ρ c (Proc.devRef .tc main_v31) = val_main_v31 (F := Ideal) (arg1 m c) := by
  show after hostOps1 (W4 m ρ c) (Proc.devRef .tc main_v31) = _
  after_results_simp
  exact w4_v31 m ρ c
theorem w5_arg4 : W5 m ρ c (Proc.devRef .tc main_arg4) = arg4 m c := by
  show after hostOps1 (W4 m ρ c) (Proc.devRef .tc main_arg4) = _
  after_results_simp
  exact w4_arg4 m ρ c
theorem w5_arg5 : W5 m ρ c (Proc.devRef .tc main_arg5) = arg5 m c := by
  show after hostOps1 (W4 m ρ c) (Proc.devRef .tc main_arg5) = _
  after_results_simp
  exact w4_arg5 m ρ c
theorem w5_arg6 : W5 m ρ c (Proc.devRef .tc main_arg6) = arg6 m c := by
  show after hostOps1 (W4 m ρ c) (Proc.devRef .tc main_arg6) = _
  after_results_simp
  exact w4_arg6 m ρ c
theorem w5_arg7 : W5 m ρ c (Proc.devRef .tc main_arg7) = arg7 m c := by
  show after hostOps1 (W4 m ρ c) (Proc.devRef .tc main_arg7) = _
  after_results_simp
  exact w4_arg7 m ρ c

/-- Region 1 leaves the bias-and-cut-off of the aggregated features. -/
theorem w6_v47 : W6 m ρ c (Proc.devRef .tc main_v47) = val_main_v49 (F := Ideal) (arg0 m c) (arg1 m c) (arg2 m c) (arg3 m c) := by
  refine (W6_arr m ρ c 2).trans ((Cert.KernelIdeal.Relu1.final (V5 m ρ) c).trans ?_)
  show biasRelu (W5 m ρ c (Proc.devRef .tc main_v45)) (W5 m ρ c (Proc.devRef .tc main_v46)) = _
  rw [w5_v45 m ρ c, w5_v46 m ρ c]
  exact (Cert.ReferenceIdeal.Stages.relu1 _ _ _ _).symm

theorem w6_v3 : W6 m ρ c (Proc.devRef .tc main_v3) = val_main_v3 (F := Ideal) (arg1 m c) :=
  (W6_of_ne m ρ c main_v3 (by decide)).trans (w5_v3 m ρ c)
theorem w6_v6 : W6 m ρ c (Proc.devRef .tc main_v6) = val_main_v6 (F := Ideal) (arg1 m c) :=
  (W6_of_ne m ρ c main_v6 (by decide)).trans (w5_v6 m ρ c)
theorem w6_v31 : W6 m ρ c (Proc.devRef .tc main_v31) = val_main_v31 (F := Ideal) (arg1 m c) :=
  (W6_of_ne m ρ c main_v31 (by decide)).trans (w5_v31 m ρ c)
theorem w6_arg4 : W6 m ρ c (Proc.devRef .tc main_arg4) = arg4 m c :=
  (W6_of_ne m ρ c main_arg4 (by decide)).trans (w5_arg4 m ρ c)
theorem w6_arg5 : W6 m ρ c (Proc.devRef .tc main_arg5) = arg5 m c :=
  (W6_of_ne m ρ c main_arg5 (by decide)).trans (w5_arg5 m ρ c)
theorem w6_arg6 : W6 m ρ c (Proc.devRef .tc main_arg6) = arg6 m c :=
  (W6_of_ne m ρ c main_arg6 (by decide)).trans (w5_arg6 m ρ c)
theorem w6_arg7 : W6 m ρ c (Proc.devRef .tc main_arg7) = arg7 m c :=
  (W6_of_ne m ρ c main_arg7 (by decide)).trans (w5_arg7 m ρ c)

/-! ## The second layer -/

/-- Region 2 leaves `h₁ · W2`. -/
theorem w7_v48 : W7 m ρ c (Proc.devRef .tc main_v48) = val_main_v50 (F := Ideal) (arg0 m c) (arg1 m c) (arg2 m c) (arg3 m c) (arg4 m c) := by
  refine (W7_arr m ρ c 2).trans ((Cert.KernelIdeal.Dense2.final (V6 m ρ) c).trans ?_)
  show matProd (W6 m ρ c (Proc.devRef .tc main_v47)) (W6 m ρ c (Proc.devRef .tc main_arg4)) = _
  rw [w6_v47 m ρ c, w6_arg4 m ρ c]
  exact (Cert.ReferenceIdeal.Stages.dense2 _ _ _ _ _).symm

theorem w7_v3 : W7 m ρ c (Proc.devRef .tc main_v3) = val_main_v3 (F := Ideal) (arg1 m c) :=
  (W7_of_ne m ρ c main_v3 (by decide)).trans (w6_v3 m ρ c)
theorem w7_v6 : W7 m ρ c (Proc.devRef .tc main_v6) = val_main_v6 (F := Ideal) (arg1 m c) :=
  (W7_of_ne m ρ c main_v6 (by decide)).trans (w6_v6 m ρ c)
theorem w7_v31 : W7 m ρ c (Proc.devRef .tc main_v31) = val_main_v31 (F := Ideal) (arg1 m c) :=
  (W7_of_ne m ρ c main_v31 (by decide)).trans (w6_v31 m ρ c)
theorem w7_arg5 : W7 m ρ c (Proc.devRef .tc main_arg5) = arg5 m c :=
  (W7_of_ne m ρ c main_arg5 (by decide)).trans (w6_arg5 m ρ c)
theorem w7_arg6 : W7 m ρ c (Proc.devRef .tc main_arg6) = arg6 m c :=
  (W7_of_ne m ρ c main_arg6 (by decide)).trans (w6_arg6 m ρ c)
theorem w7_arg7 : W7 m ρ c (Proc.devRef .tc main_arg7) = arg7 m c :=
  (W7_of_ne m ρ c main_arg7 (by decide)).trans (w6_arg7 m ρ c)

theorem w8_v61 : W8 m ρ c (Proc.devRef .tc main_v61) = val_main_v63 (F := Ideal) (arg0 m c) (arg1 m c) (arg2 m c) (arg3 m c) (arg4 m c) := by
  show after hostOps3 (W7 m ρ c) (Proc.devRef .tc main_v61) = _
  after_results_simp
  rw [w7_v3 m ρ c, w7_v6 m ρ c, w7_v31 m ρ c, w7_v48 m ρ c]
  rfl

theorem w8_v62 : W8 m ρ c (Proc.devRef .tc main_v62) = val_main_v64 (F := Ideal) (arg5 m c) := by
  show after hostOps3 (W7 m ρ c) (Proc.devRef .tc main_v62) = _
  after_results_simp
  rw [w7_arg5 m ρ c]
  exact Cert.ReferenceIdeal.Stages.row_forms _ _ _

theorem w8_v3 : W8 m ρ c (Proc.devRef .tc main_v3) = val_main_v3 (F := Ideal) (arg1 m c) := by
  show after hostOps3 (W7 m ρ c) (Proc.devRef .tc main_v3) = _
  after_results_simp
  exact w7_v3 m ρ c
theorem w8_v6 : W8 m ρ c (Proc.devRef .tc main_v6) = val_main_v6 (F := Ideal) (arg1 m c) := by
  show after hostOps3 (W7 m ρ c) (Proc.devRef .tc main_v6) = _
  after_results_simp
  exact w7_v6 m ρ c
theorem w8_v31 : W8 m ρ c (Proc.devRef .tc main_v31) = val_main_v31 (F := Ideal) (arg1 m c) := by
  show after hostOps3 (W7 m ρ c) (Proc.devRef .tc main_v31) = _
  after_results_simp
  exact w7_v31 m ρ c
theorem w8_arg6 : W8 m ρ c (Proc.devRef .tc main_arg6) = arg6 m c := by
  show after hostOps3 (W7 m ρ c) (Proc.devRef .tc main_arg6) = _
  after_results_simp
  exact w7_arg6 m ρ c
theorem w8_arg7 : W8 m ρ c (Proc.devRef .tc main_arg7) = arg7 m c := by
  show after hostOps3 (W7 m ρ c) (Proc.devRef .tc main_arg7) = _
  after_results_simp
  exact w7_arg7 m ρ c

/-- Region 3 leaves the bias-and-cut-off of the second layer's aggregated features. -/
theorem w9_v63 : W9 m ρ c (Proc.devRef .tc main_v63) = val_main_v67 (F := Ideal) (arg0 m c) (arg1 m c) (arg2 m c) (arg3 m c) (arg4 m c) (arg5 m c) := by
  refine (W9_arr m ρ c 2).trans ((Cert.KernelIdeal.Relu3.final (V8 m ρ) c).trans ?_)
  show biasRelu (W8 m ρ c (Proc.devRef .tc main_v61)) (W8 m ρ c (Proc.devRef .tc main_v62)) = _
  rw [w8_v61 m ρ c, w8_v62 m ρ c]
  exact (Cert.ReferenceIdeal.Stages.relu2 _ _ _ _ _ _).symm

theorem w9_v3 : W9 m ρ c (Proc.devRef .tc main_v3) = val_main_v3 (F := Ideal) (arg1 m c) :=
  (W9_of_ne m ρ c main_v3 (by decide)).trans (w8_v3 m ρ c)
theorem w9_v6 : W9 m ρ c (Proc.devRef .tc main_v6) = val_main_v6 (F := Ideal) (arg1 m c) :=
  (W9_of_ne m ρ c main_v6 (by decide)).trans (w8_v6 m ρ c)
theorem w9_v31 : W9 m ρ c (Proc.devRef .tc main_v31) = val_main_v31 (F := Ideal) (arg1 m c) :=
  (W9_of_ne m ρ c main_v31 (by decide)).trans (w8_v31 m ρ c)
theorem w9_arg6 : W9 m ρ c (Proc.devRef .tc main_arg6) = arg6 m c :=
  (W9_of_ne m ρ c main_arg6 (by decide)).trans (w8_arg6 m ρ c)
theorem w9_arg7 : W9 m ρ c (Proc.devRef .tc main_arg7) = arg7 m c :=
  (W9_of_ne m ρ c main_arg7 (by decide)).trans (w8_arg7 m ρ c)

/-! ## The third layer -/

/-- Region 4 leaves `h₂ · W3`. -/
theorem w10_v64 : W10 m ρ c (Proc.devRef .tc main_v64) = val_main_v68 (F := Ideal) (arg0 m c) (arg1 m c) (arg2 m c) (arg3 m c) (arg4 m c) (arg5 m c) (arg6 m c) := by
  refine (W10_arr m ρ c 2).trans ((Cert.KernelIdeal.Dense4.final (V9 m ρ) c).trans ?_)
  show matProd (W9 m ρ c (Proc.devRef .tc main_v63)) (W9 m ρ c (Proc.devRef .tc main_arg6)) = _
  rw [w9_v63 m ρ c, w9_arg6 m ρ c]
  exact (Cert.ReferenceIdeal.Stages.dense3 _ _ _ _ _ _ _).symm

theorem w10_v3 : W10 m ρ c (Proc.devRef .tc main_v3) = val_main_v3 (F := Ideal) (arg1 m c) :=
  (W10_of_ne m ρ c main_v3 (by decide)).trans (w9_v3 m ρ c)
theorem w10_v6 : W10 m ρ c (Proc.devRef .tc main_v6) = val_main_v6 (F := Ideal) (arg1 m c) :=
  (W10_of_ne m ρ c main_v6 (by decide)).trans (w9_v6 m ρ c)
theorem w10_v31 : W10 m ρ c (Proc.devRef .tc main_v31) = val_main_v31 (F := Ideal) (arg1 m c) :=
  (W10_of_ne m ρ c main_v31 (by decide)).trans (w9_v31 m ρ c)
theorem w10_arg7 : W10 m ρ c (Proc.devRef .tc main_arg7) = arg7 m c :=
  (W10_of_ne m ρ c main_arg7 (by decide)).trans (w9_arg7 m ρ c)

theorem w11_v77 : W11 m ρ c (Proc.devRef .tc main_v77) = val_main_v81 (F := Ideal) (arg0 m c) (arg1 m c) (arg2 m c) (arg3 m c) (arg4 m c) (arg5 m c) (arg6 m c) := by
  show after hostOps5 (W10 m ρ c) (Proc.devRef .tc main_v77) = _
  after_results_simp
  rw [w10_v3 m ρ c, w10_v6 m ρ c, w10_v31 m ρ c, w10_v64 m ρ c]
  rfl

theorem w11_v78 : W11 m ρ c (Proc.devRef .tc main_v78) = val_main_v82 (F := Ideal) (arg7 m c) := by
  show after hostOps5 (W10 m ρ c) (Proc.devRef .tc main_v78) = _
  after_results_simp
  rw [w10_arg7 m ρ c]
  exact Cert.ReferenceIdeal.Stages.row_forms _ _ _

/-- Region 5 leaves the bias-and-log-softmax of the third layer's aggregated features: the reference's result. -/
theorem result_eq : (dat5 (V11 m ρ) c).arrAt 2 cfg5.N = val_main_v85 (F := Ideal) (arg0 m c) (arg1 m c) (arg2 m c) (arg3 m c) (arg4 m c) (arg5 m c) (arg6 m c) (arg7 m c) := by
  refine (Cert.KernelIdeal.LogSoftmax5.final (V11 m ρ) c).trans ?_
  show biasLogSoftmax (W11 m ρ c (Proc.devRef .tc main_v77)) (W11 m ρ c (Proc.devRef .tc main_v78)) = _
  rw [w11_v77 m ρ c, w11_v78 m ρ c]
  exact (Cert.ReferenceIdeal.Stages.logSoftmax _ _ _ _ _ _ _ _).symm

end Cert.Bridge

end
-- ==== Proof.lean ====
/-
  The certificate of a three-layer graph convolution network: the device program against its reference.

  Both programs build, from the edge list, the source and target lists with self loops and the symmetric normalization,
  and then apply three layers — a linear map, a gather of rows along the sources scaled by the normalization, an
  accumulating scatter along the targets, a bias, and `relu` (twice) or `log_softmax` (last). The device program computes
  the three linear maps and the three bias-and-activation steps in six kernel regions, each over ten blocks of 10000 rows,
  narrowing the linear maps' operands to bf16; the reference computes them on the host. On the extended reals a change of
  format is the identity and a block of rows of each step is the step applied to that block of rows, so the two programs
  compute the same function of the arguments: the result buffer of each ends at the reference's last stage
  (`Bridge.result_eq` for the device program, the reference's run for the reference). Only the commutative monoid laws of
  the sums are used, so the precondition (finite inputs) is never opened. The three frames are the programs' runs with the
  result forgotten, and the idealization rewrote nothing.
-/
import proofs.«169351_j80333068304388_1_alg».proof.Defs
import proofs.«169351_j80333068304388_1_alg».proof.Proof.Gen.Kernel
import proofs.«169351_j80333068304388_1_alg».proof.Proof.Gen.Kernel.Skeleton
import proofs.«169351_j80333068304388_1_alg».proof.Proof.Gen.Kernel.Launch
import proofs.«169351_j80333068304388_1_alg».proof.Proof.Gen.Kernel.Points
import proofs.«169351_j80333068304388_1_alg».proof.Proof.Gen.Kernel.Frame
import proofs.«169351_j80333068304388_1_alg».proof.Proof.Gen.KernelIdeal
import proofs.«169351_j80333068304388_1_alg».proof.Proof.Gen.KernelIdeal.Skeleton
import proofs.«169351_j80333068304388_1_alg».proof.Proof.Gen.KernelIdeal.Launch
import proofs.«169351_j80333068304388_1_alg».proof.Proof.Gen.KernelIdeal.Points
import proofs.«169351_j80333068304388_1_alg».proof.Proof.Gen.KernelIdeal.Frame
import proofs.«169351_j80333068304388_1_alg».proof.Proof.Gen.ReferenceIdeal
import proofs.«169351_j80333068304388_1_alg».proof.Proof.Gen.Pre_finite_inputs
import proofs.«169351_j80333068304388_1_alg».proof.Proof.RefRun
import proofs.«169351_j80333068304388_1_alg».proof.Proof.KernelRun
import proofs.«169351_j80333068304388_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result forgotten. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- The idealization rewrote no operation. -/
theorem preserves : Cert.preserves_Kernel_KernelIdeal := trivial

/-- From memories agreeing on the arguments both programs end with the result buffer at the reference's last stage of the
    device program's launch arrays. -/
theorem algebraic : Cert.algebraic_KernelIdeal_ReferenceIdeal := by
  intro m ρ m' ρ' _ hagree
  refine ⟨fun c => Cert.ReferenceIdeal.ReadP.val_main_v85 (F := Ideal) (Cert.Bridge.arg0 m c) (Cert.Bridge.arg1 m c)
      (Cert.Bridge.arg2 m c) (Cert.Bridge.arg3 m c) (Cert.Bridge.arg4 m c) (Cert.Bridge.arg5 m c) (Cert.Bridge.arg6 m c)
      (Cert.Bridge.arg7 m c),
    (θ_run Cert.KernelIdeal.defs _ _).mono (fun _ h c => ⟨(h c).1.trans (Cert.Bridge.result_eq m ρ c), (h c).2⟩)
      (Cert.KernelIdeal.Named.run_result (F := Ideal) m ρ), ?_⟩
  refine (θ_run Cert.ReferenceIdeal.defs _ _).mono (fun _ h c => ⟨(h c).1.trans ?_, (h c).2⟩)
    (Cert.ReferenceIdeal.Staged.run (F := Ideal) m' ρ')
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
